-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50x1000 : Shape := ⟨3, ![1024, 50, 1000]⟩
abbrev S1000x128 : Shape := ⟨2, ![1000, 128]⟩
abbrev S_ : Shape := ⟨0, ![]⟩

class Facts : Prop where
  bcast_S_S1024x50x1000 : S_.BroadcastsInDim S1024x50x1000 (![] : Fin 0 → Fin S1024x50x1000.rank)
  reducesTo_S1024x50x1000_S_d0_1_2 : S1024x50x1000.ReducesTo [0, 1, 2] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1024x50x1000 .f32) (main_arg1 : FVec F S1000x128 .f32) : IVec S_ 1 :=
  let main_v0 : FVec F S1024x50x1000 .f32 := Host.absf main_arg0
  let main_cst : FVec F S_ .f32 := constant S_ .f32 0x7F800000#32
  let main_v1 : FVec F S1024x50x1000 .f32 := broadcastInDim S1024x50x1000 ![] bcast_S_S1024x50x1000 main_cst
  let main_v2 : IVec S1024x50x1000 1 := cmpf .olt main_v0 main_v1
  let main_c : IVec S_ 1 := constantI S_ 1 1#1
  let main_v3 : IVec S_ 1 := (fun x v => Host.reduce IntOp.andi x v reducesTo_S1024x50x1000_S_d0_1_2 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1024x50x1000 : Shape := ⟨3, ![1024, 50, 1000]⟩
abbrev S1000x128 : Shape := ⟨2, ![1000, 128]⟩
abbrev S1024x50x128 : Shape := ⟨3, ![1024, 50, 128]⟩
abbrev S64x50x1000 : Shape := ⟨3, ![64, 50, 1000]⟩
abbrev S64x50x128 : Shape := ⟨3, ![64, 50, 128]⟩
abbrev S1x50x1000 : Shape := ⟨3, ![1, 50, 1000]⟩
abbrev S50x1000 : Shape := ⟨2, ![50, 1000]⟩
abbrev S50x128 : Shape := ⟨2, ![50, 128]⟩
abbrev S1x50x128 : Shape := ⟨3, ![1, 50, 128]⟩

abbrev nBuf : Space → Nat
  | .hbm => 3
  | .vmem => 5
  | .smem => 0
  | _ => 0

abbrev bufTy : (tb : Table) → Fin (tcTables nBuf tb) → BufTy
  | .hbm, ⟨0, _⟩ => ⟨S1024x50x1000, .f32⟩
  | .hbm, ⟨1, _⟩ => ⟨S1000x128, .f32⟩
  | .hbm, ⟨2, _⟩ => ⟨S1024x50x128, .f32⟩
  | .local _ .vmem, ⟨0, _⟩ => ⟨S64x50x1000, .f32⟩
  | .local _ .vmem, ⟨1, _⟩ => ⟨S64x50x1000, .f32⟩
  | .local _ .vmem, ⟨2, _⟩ => ⟨S1000x128, .f32⟩
  | .local _ .vmem, ⟨3, _⟩ => ⟨S64x50x128, .f32⟩
  | .local _ .vmem, ⟨4, _⟩ => ⟨S64x50x128, .f32⟩
  | _, _ => ⟨S1024x50x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x50x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1000x128_S1000x128_0_0 : ∀ a, (![0, 0] : Fin 2 → Nat) a + S1000x128.size a ≤ S1000x128.size a
  h_S1000x128 : 0 < S1000x128.numel
  iota_S1000x128_d0_w32 : S1000x128.Iotas .tc 32 [0]
  bitsLt_bf16_f32 : FTy.bits .bf16 < FTy.bits .f32
  inb_S64x50x1000_S1x50x1000_0_0_0 : ∀ a, (![0, 0, 0] : Fin 3 → Nat) a + S1x50x1000.size a ≤ S64x50x1000.size a
  h_S1x50x1000 : 0 < S1x50x1000.numel
  shapeCasts_S1x50x1000_S50x1000 : S1x50x1000.ShapeCasts S50x1000
  inb_S64x50x128_S1x50x128_0_0_0 : ∀ a, (![0, 0, 0] : Fin 3 → Nat) a + S1x50x128.size a ≤ S64x50x128.size a
  h_S1x50x128 : 0 < S1x50x128.numel
  shapeCasts_S1x50x128_S50x128 : S1x50x128.ShapeCasts S50x128
  shapeCasts_S50x128_S1x50x128 : S50x128.ShapeCasts S1x50x128
  inb_S64x50x1000_S1x50x1000_1_0_0 : ∀ a, (![1, 0, 0] : Fin 3 → Nat) a + S1x50x1000.size a ≤ S64x50x1000.size a
  inb_S64x50x128_S1x50x128_1_0_0 : ∀ a, (![1, 0, 0] : Fin 3 → Nat) a + S1x50x128.size a ≤ S64x50x128.size a
  inb_S64x50x1000_S1x50x1000_2_0_0 : ∀ a, (![2, 0, 0] : Fin 3 → Nat) a + S1x50x1000.size a ≤ S64x50x1000.size a
  inb_S64x50x128_S1x50x128_2_0_0 : ∀ a, (![2, 0, 0] : Fin 3 → Nat) a + S1x50x128.size a ≤ S64x50x128.size a
  inb_S64x50x1000_S1x50x1000_3_0_0 : ∀ a, (![3, 0, 0] : Fin 3 → Nat) a + S1x50x1000.size a ≤ S64x50x1000.size a
  inb_S64x50x128_S1x50x128_3_0_0 : ∀ a, (![3, 0, 0] : Fin 3 → Nat) a + S1x50x128.size a ≤ S64x50x128.size a
  inb_S64x50x1000_S1x50x1000_4_0_0 : ∀ a, (![4, 0, 0] : Fin 3 → Nat) a + S1x50x1000.size a ≤ S64x50x1000.size a
  inb_S64x50x128_S1x50x128_4_0_0 : ∀ a, (![4, 0, 0] : Fin 3 → Nat) a + S1x50x128.size a ≤ S64x50x128.size a
  inb_S64x50x1000_S1x50x1000_5_0_0 : ∀ a, (![5, 0, 0] : Fin 3 → Nat) a + S1x50x1000.size a ≤ S64x50x1000.size a
  inb_S64x50x128_S1x50x128_5_0_0 : ∀ a, (![5, 0, 0] : Fin 3 → Nat) a + S1x50x128.size a ≤ S64x50x128.size a
  inb_S64x50x1000_S1x50x1000_6_0_0 : ∀ a, (![6, 0, 0] : Fin 3 → Nat) a + S1x50x1000.size a ≤ S64x50x1000.size a
  inb_S64x50x128_S1x50x128_6_0_0 : ∀ a, (![6, 0, 0] : Fin 3 → Nat) a + S1x50x128.size a ≤ S64x50x128.size a
  inb_S64x50x1000_S1x50x1000_7_0_0 : ∀ a, (![7, 0, 0] : Fin 3 → Nat) a + S1x50x1000.size a ≤ S64x50x1000.size a
  inb_S64x50x128_S1x50x128_7_0_0 : ∀ a, (![7, 0, 0] : Fin 3 → Nat) a + S1x50x128.size a ≤ S64x50x128.size a
  inb_S64x50x1000_S1x50x1000_8_0_0 : ∀ a, (![8, 0, 0] : Fin 3 → Nat) a + S1x50x1000.size a ≤ S64x50x1000.size a
  inb_S64x50x128_S1x50x128_8_0_0 : ∀ a, (![8, 0, 0] : Fin 3 → Nat) a + S1x50x128.size a ≤ S64x50x128.size a
  inb_S64x50x1000_S1x50x1000_9_0_0 : ∀ a, (![9, 0, 0] : Fin 3 → Nat) a + S1x50x1000.size a ≤ S64x50x1000.size a
  inb_S64x50x128_S1x50x128_9_0_0 : ∀ a, (![9, 0, 0] : Fin 3 → Nat) a + S1x50x128.size a ≤ S64x50x128.size a
  inb_S64x50x1000_S1x50x1000_10_0_0 : ∀ a, (![10, 0, 0] : Fin 3 → Nat) a + S1x50x1000.size a ≤ S64x50x1000.size a
  inb_S64x50x128_S1x50x128_10_0_0 : ∀ a, (![10, 0, 0] : Fin 3 → Nat) a + S1x50x128.size a ≤ S64x50x128.size a
  inb_S64x50x1000_S1x50x1000_11_0_0 : ∀ a, (![11, 0, 0] : Fin 3 → Nat) a + S1x50x1000.size a ≤ S64x50x1000.size a
  inb_S64x50x128_S1x50x128_11_0_0 : ∀ a, (![11, 0, 0] : Fin 3 → Nat) a + S1x50x128.size a ≤ S64x50x128.size a
  inb_S64x50x1000_S1x50x1000_12_0_0 : ∀ a, (![12, 0, 0] : Fin 3 → Nat) a + S1x50x1000.size a ≤ S64x50x1000.size a
  inb_S64x50x128_S1x50x128_12_0_0 : ∀ a, (![12, 0, 0] : Fin 3 → Nat) a + S1x50x128.size a ≤ S64x50x128.size a
  inb_S64x50x1000_S1x50x1000_13_0_0 : ∀ a, (![13, 0, 0] : Fin 3 → Nat) a + S1x50x1000.size a ≤ S64x50x1000.size a
  inb_S64x50x128_S1x50x128_13_0_0 : ∀ a, (![13, 0, 0] : Fin 3 → Nat) a + S1x50x128.size a ≤ S64x50x128.size a
  inb_S64x50x1000_S1x50x1000_14_0_0 : ∀ a, (![14, 0, 0] : Fin 3 → Nat) a + S1x50x1000.size a ≤ S64x50x1000.size a
  inb_S64x50x128_S1x50x128_14_0_0 : ∀ a, (![14, 0, 0] : Fin 3 → Nat) a + S1x50x128.size a ≤ S64x50x128.size a
  inb_S64x50x1000_S1x50x1000_15_0_0 : ∀ a, (![15, 0, 0] : Fin 3 → Nat) a + S1x50x1000.size a ≤ S64x50x1000.size a
  inb_S64x50x128_S1x50x128_15_0_0 : ∀ a, (![15, 0, 0] : Fin 3 → Nat) a + S1x50x128.size a ≤ S64x50x128.size a
  inb_S64x50x1000_S1x50x1000_16_0_0 : ∀ a, (![16, 0, 0] : Fin 3 → Nat) a + S1x50x1000.size a ≤ S64x50x1000.size a
  inb_S64x50x128_S1x50x128_16_0_0 : ∀ a, (![16, 0, 0] : Fin 3 → Nat) a + S1x50x128.size a ≤ S64x50x128.size a
  inb_S64x50x1000_S1x50x1000_17_0_0 : ∀ a, (![17, 0, 0] : Fin 3 → Nat) a + S1x50x1000.size a ≤ S64x50x1000.size a
  inb_S64x50x128_S1x50x128_17_0_0 : ∀ a, (![17, 0, 0] : Fin 3 → Nat) a + S1x50x128.size a ≤ S64x50x128.size a
  inb_S64x50x1000_S1x50x1000_18_0_0 : ∀ a, (![18, 0, 0] : Fin 3 → Nat) a + S1x50x1000.size a ≤ S64x50x1000.size a
  inb_S64x50x128_S1x50x128_18_0_0 : ∀ a, (![18, 0, 0] : Fin 3 → Nat) a + S1x50x128.size a ≤ S64x50x128.size a
  inb_S64x50x1000_S1x50x1000_19_0_0 : ∀ a, (![19, 0, 0] : Fin 3 → Nat) a + S1x50x1000.size a ≤ S64x50x1000.size a
  inb_S64x50x128_S1x50x128_19_0_0 : ∀ a, (![19, 0, 0] : Fin 3 → Nat) a + S1x50x128.size a ≤ S64x50x128.size a
  inb_S64x50x1000_S1x50x1000_20_0_0 : ∀ a, (![20, 0, 0] : Fin 3 → Nat) a + S1x50x1000.size a ≤ S64x50x1000.size a
  inb_S64x50x128_S1x50x128_20_0_0 : ∀ a, (![20, 0, 0] : Fin 3 → Nat) a + S1x50x128.size a ≤ S64x50x128.size a
  inb_S64x50x1000_S1x50x1000_21_0_0 : ∀ a, (![21, 0, 0] : Fin 3 → Nat) a + S1x50x1000.size a ≤ S64x50x1000.size a
  inb_S64x50x128_S1x50x128_21_0_0 : ∀ a, (![21, 0, 0] : Fin 3 → Nat) a + S1x50x128.size a ≤ S64x50x128.size a
  inb_S64x50x1000_S1x50x1000_22_0_0 : ∀ a, (![22, 0, 0] : Fin 3 → Nat) a + S1x50x1000.size a ≤ S64x50x1000.size a
  inb_S64x50x128_S1x50x128_22_0_0 : ∀ a, (![22, 0, 0] : Fin 3 → Nat) a + S1x50x128.size a ≤ S64x50x128.size a
  inb_S64x50x1000_S1x50x1000_23_0_0 : ∀ a, (![23, 0, 0] : Fin 3 → Nat) a + S1x50x1000.size a ≤ S64x50x1000.size a
  inb_S64x50x128_S1x50x128_23_0_0 : ∀ a, (![23, 0, 0] : Fin 3 → Nat) a + S1x50x128.size a ≤ S64x50x128.size a
  inb_S64x50x1000_S1x50x1000_24_0_0 : ∀ a, (![24, 0, 0] : Fin 3 → Nat) a + S1x50x1000.size a ≤ S64x50x1000.size a
  inb_S64x50x128_S1x50x128_24_0_0 : ∀ a, (![24, 0, 0] : Fin 3 → Nat) a + S1x50x128.size a ≤ S64x50x128.size a
  inb_S64x50x1000_S1x50x1000_25_0_0 : ∀ a, (![25, 0, 0] : Fin 3 → Nat) a + S1x50x1000.size a ≤ S64x50x1000.size a
  inb_S64x50x128_S1x50x128_25_0_0 : ∀ a, (![25, 0, 0] : Fin 3 → Nat) a + S1x50x128.size a ≤ S64x50x128.size a
  inb_S64x50x1000_S1x50x1000_26_0_0 : ∀ a, (![26, 0, 0] : Fin 3 → Nat) a + S1x50x1000.size a ≤ S64x50x1000.size a
  inb_S64x50x128_S1x50x128_26_0_0 : ∀ a, (![26, 0, 0] : Fin 3 → Nat) a + S1x50x128.size a ≤ S64x50x128.size a
  inb_S64x50x1000_S1x50x1000_27_0_0 : ∀ a, (![27, 0, 0] : Fin 3 → Nat) a + S1x50x1000.size a ≤ S64x50x1000.size a
  inb_S64x50x128_S1x50x128_27_0_0 : ∀ a, (![27, 0, 0] : Fin 3 → Nat) a + S1x50x128.size a ≤ S64x50x128.size a
  inb_S64x50x1000_S1x50x1000_28_0_0 : ∀ a, (![28, 0, 0] : Fin 3 → Nat) a + S1x50x1000.size a ≤ S64x50x1000.size a
  inb_S64x50x128_S1x50x128_28_0_0 : ∀ a, (![28, 0, 0] : Fin 3 → Nat) a + S1x50x128.size a ≤ S64x50x128.size a
  inb_S64x50x1000_S1x50x1000_29_0_0 : ∀ a, (![29, 0, 0] : Fin 3 → Nat) a + S1x50x1000.size a ≤ S64x50x1000.size a
  inb_S64x50x128_S1x50x128_29_0_0 : ∀ a, (![29, 0, 0] : Fin 3 → Nat) a + S1x50x128.size a ≤ S64x50x128.size a
  inb_S64x50x1000_S1x50x1000_30_0_0 : ∀ a, (![30, 0, 0] : Fin 3 → Nat) a + S1x50x1000.size a ≤ S64x50x1000.size a
  inb_S64x50x128_S1x50x128_30_0_0 : ∀ a, (![30, 0, 0] : Fin 3 → Nat) a + S1x50x128.size a ≤ S64x50x128.size a
  inb_S64x50x1000_S1x50x1000_31_0_0 : ∀ a, (![31, 0, 0] : Fin 3 → Nat) a + S1x50x1000.size a ≤ S64x50x1000.size a
  inb_S64x50x128_S1x50x128_31_0_0 : ∀ a, (![31, 0, 0] : Fin 3 → Nat) a + S1x50x128.size a ≤ S64x50x128.size a
  inb_S64x50x1000_S1x50x1000_32_0_0 : ∀ a, (![32, 0, 0] : Fin 3 → Nat) a + S1x50x1000.size a ≤ S64x50x1000.size a
  inb_S64x50x128_S1x50x128_32_0_0 : ∀ a, (![32, 0, 0] : Fin 3 → Nat) a + S1x50x128.size a ≤ S64x50x128.size a
  inb_S64x50x1000_S1x50x1000_33_0_0 : ∀ a, (![33, 0, 0] : Fin 3 → Nat) a + S1x50x1000.size a ≤ S64x50x1000.size a
  inb_S64x50x128_S1x50x128_33_0_0 : ∀ a, (![33, 0, 0] : Fin 3 → Nat) a + S1x50x128.size a ≤ S64x50x128.size a
  inb_S64x50x1000_S1x50x1000_34_0_0 : ∀ a, (![34, 0, 0] : Fin 3 → Nat) a + S1x50x1000.size a ≤ S64x50x1000.size a
  inb_S64x50x128_S1x50x128_34_0_0 : ∀ a, (![34, 0, 0] : Fin 3 → Nat) a + S1x50x128.size a ≤ S64x50x128.size a
  inb_S64x50x1000_S1x50x1000_35_0_0 : ∀ a, (![35, 0, 0] : Fin 3 → Nat) a + S1x50x1000.size a ≤ S64x50x1000.size a
  inb_S64x50x128_S1x50x128_35_0_0 : ∀ a, (![35, 0, 0] : Fin 3 → Nat) a + S1x50x128.size a ≤ S64x50x128.size a
  inb_S64x50x1000_S1x50x1000_36_0_0 : ∀ a, (![36, 0, 0] : Fin 3 → Nat) a + S1x50x1000.size a ≤ S64x50x1000.size a
  inb_S64x50x128_S1x50x128_36_0_0 : ∀ a, (![36, 0, 0] : Fin 3 → Nat) a + S1x50x128.size a ≤ S64x50x128.size a
  inb_S64x50x1000_S1x50x1000_37_0_0 : ∀ a, (![37, 0, 0] : Fin 3 → Nat) a + S1x50x1000.size a ≤ S64x50x1000.size a
  inb_S64x50x128_S1x50x128_37_0_0 : ∀ a, (![37, 0, 0] : Fin 3 → Nat) a + S1x50x128.size a ≤ S64x50x128.size a
  inb_S64x50x1000_S1x50x1000_38_0_0 : ∀ a, (![38, 0, 0] : Fin 3 → Nat) a + S1x50x1000.size a ≤ S64x50x1000.size a
  inb_S64x50x128_S1x50x128_38_0_0 : ∀ a, (![38, 0, 0] : Fin 3 → Nat) a + S1x50x128.size a ≤ S64x50x128.size a
  inb_S64x50x1000_S1x50x1000_39_0_0 : ∀ a, (![39, 0, 0] : Fin 3 → Nat) a + S1x50x1000.size a ≤ S64x50x1000.size a
  inb_S64x50x128_S1x50x128_39_0_0 : ∀ a, (![39, 0, 0] : Fin 3 → Nat) a + S1x50x128.size a ≤ S64x50x128.size a
  inb_S64x50x1000_S1x50x1000_40_0_0 : ∀ a, (![40, 0, 0] : Fin 3 → Nat) a + S1x50x1000.size a ≤ S64x50x1000.size a
  inb_S64x50x128_S1x50x128_40_0_0 : ∀ a, (![40, 0, 0] : Fin 3 → Nat) a + S1x50x128.size a ≤ S64x50x128.size a
  inb_S64x50x1000_S1x50x1000_41_0_0 : ∀ a, (![41, 0, 0] : Fin 3 → Nat) a + S1x50x1000.size a ≤ S64x50x1000.size a
  inb_S64x50x128_S1x50x128_41_0_0 : ∀ a, (![41, 0, 0] : Fin 3 → Nat) a + S1x50x128.size a ≤ S64x50x128.size a
  inb_S64x50x1000_S1x50x1000_42_0_0 : ∀ a, (![42, 0, 0] : Fin 3 → Nat) a + S1x50x1000.size a ≤ S64x50x1000.size a
  inb_S64x50x128_S1x50x128_42_0_0 : ∀ a, (![42, 0, 0] : Fin 3 → Nat) a + S1x50x128.size a ≤ S64x50x128.size a
  inb_S64x50x1000_S1x50x1000_43_0_0 : ∀ a, (![43, 0, 0] : Fin 3 → Nat) a + S1x50x1000.size a ≤ S64x50x1000.size a
  inb_S64x50x128_S1x50x128_43_0_0 : ∀ a, (![43, 0, 0] : Fin 3 → Nat) a + S1x50x128.size a ≤ S64x50x128.size a
  inb_S64x50x1000_S1x50x1000_44_0_0 : ∀ a, (![44, 0, 0] : Fin 3 → Nat) a + S1x50x1000.size a ≤ S64x50x1000.size a
  inb_S64x50x128_S1x50x128_44_0_0 : ∀ a, (![44, 0, 0] : Fin 3 → Nat) a + S1x50x128.size a ≤ S64x50x128.size a
  inb_S64x50x1000_S1x50x1000_45_0_0 : ∀ a, (![45, 0, 0] : Fin 3 → Nat) a + S1x50x1000.size a ≤ S64x50x1000.size a
  inb_S64x50x128_S1x50x128_45_0_0 : ∀ a, (![45, 0, 0] : Fin 3 → Nat) a + S1x50x128.size a ≤ S64x50x128.size a
  inb_S64x50x1000_S1x50x1000_46_0_0 : ∀ a, (![46, 0, 0] : Fin 3 → Nat) a + S1x50x1000.size a ≤ S64x50x1000.size a
  inb_S64x50x128_S1x50x128_46_0_0 : ∀ a, (![46, 0, 0] : Fin 3 → Nat) a + S1x50x128.size a ≤ S64x50x128.size a
  inb_S64x50x1000_S1x50x1000_47_0_0 : ∀ a, (![47, 0, 0] : Fin 3 → Nat) a + S1x50x1000.size a ≤ S64x50x1000.size a
  inb_S64x50x128_S1x50x128_47_0_0 : ∀ a, (![47, 0, 0] : Fin 3 → Nat) a + S1x50x128.size a ≤ S64x50x128.size a
  inb_S64x50x1000_S1x50x1000_48_0_0 : ∀ a, (![48, 0, 0] : Fin 3 → Nat) a + S1x50x1000.size a ≤ S64x50x1000.size a
  inb_S64x50x128_S1x50x128_48_0_0 : ∀ a, (![48, 0, 0] : Fin 3 → Nat) a + S1x50x128.size a ≤ S64x50x128.size a
  inb_S64x50x1000_S1x50x1000_49_0_0 : ∀ a, (![49, 0, 0] : Fin 3 → Nat) a + S1x50x1000.size a ≤ S64x50x1000.size a
  inb_S64x50x128_S1x50x128_49_0_0 : ∀ a, (![49, 0, 0] : Fin 3 → Nat) a + S1x50x128.size a ≤ S64x50x128.size a
  inb_S64x50x1000_S1x50x1000_50_0_0 : ∀ a, (![50, 0, 0] : Fin 3 → Nat) a + S1x50x1000.size a ≤ S64x50x1000.size a
  inb_S64x50x128_S1x50x128_50_0_0 : ∀ a, (![50, 0, 0] : Fin 3 → Nat) a + S1x50x128.size a ≤ S64x50x128.size a
  inb_S64x50x1000_S1x50x1000_51_0_0 : ∀ a, (![51, 0, 0] : Fin 3 → Nat) a + S1x50x1000.size a ≤ S64x50x1000.size a
  inb_S64x50x128_S1x50x128_51_0_0 : ∀ a, (![51, 0, 0] : Fin 3 → Nat) a + S1x50x128.size a ≤ S64x50x128.size a
  inb_S64x50x1000_S1x50x1000_52_0_0 : ∀ a, (![52, 0, 0] : Fin 3 → Nat) a + S1x50x1000.size a ≤ S64x50x1000.size a
  inb_S64x50x128_S1x50x128_52_0_0 : ∀ a, (![52, 0, 0] : Fin 3 → Nat) a + S1x50x128.size a ≤ S64x50x128.size a
  inb_S64x50x1000_S1x50x1000_53_0_0 : ∀ a, (![53, 0, 0] : Fin 3 → Nat) a + S1x50x1000.size a ≤ S64x50x1000.size a
  inb_S64x50x128_S1x50x128_53_0_0 : ∀ a, (![53, 0, 0] : Fin 3 → Nat) a + S1x50x128.size a ≤ S64x50x128.size a
  inb_S64x50x1000_S1x50x1000_54_0_0 : ∀ a, (![54, 0, 0] : Fin 3 → Nat) a + S1x50x1000.size a ≤ S64x50x1000.size a
  inb_S64x50x128_S1x50x128_54_0_0 : ∀ a, (![54, 0, 0] : Fin 3 → Nat) a + S1x50x128.size a ≤ S64x50x128.size a
  inb_S64x50x1000_S1x50x1000_55_0_0 : ∀ a, (![55, 0, 0] : Fin 3 → Nat) a + S1x50x1000.size a ≤ S64x50x1000.size a
  inb_S64x50x128_S1x50x128_55_0_0 : ∀ a, (![55, 0, 0] : Fin 3 → Nat) a + S1x50x128.size a ≤ S64x50x128.size a
  inb_S64x50x1000_S1x50x1000_56_0_0 : ∀ a, (![56, 0, 0] : Fin 3 → Nat) a + S1x50x1000.size a ≤ S64x50x1000.size a
  inb_S64x50x128_S1x50x128_56_0_0 : ∀ a, (![56, 0, 0] : Fin 3 → Nat) a + S1x50x128.size a ≤ S64x50x128.size a
  inb_S64x50x1000_S1x50x1000_57_0_0 : ∀ a, (![57, 0, 0] : Fin 3 → Nat) a + S1x50x1000.size a ≤ S64x50x1000.size a
  inb_S64x50x128_S1x50x128_57_0_0 : ∀ a, (![57, 0, 0] : Fin 3 → Nat) a + S1x50x128.size a ≤ S64x50x128.size a
  inb_S64x50x1000_S1x50x1000_58_0_0 : ∀ a, (![58, 0, 0] : Fin 3 → Nat) a + S1x50x1000.size a ≤ S64x50x1000.size a
  inb_S64x50x128_S1x50x128_58_0_0 : ∀ a, (![58, 0, 0] : Fin 3 → Nat) a + S1x50x128.size a ≤ S64x50x128.size a
  inb_S64x50x1000_S1x50x1000_59_0_0 : ∀ a, (![59, 0, 0] : Fin 3 → Nat) a + S1x50x1000.size a ≤ S64x50x1000.size a
  inb_S64x50x128_S1x50x128_59_0_0 : ∀ a, (![59, 0, 0] : Fin 3 → Nat) a + S1x50x128.size a ≤ S64x50x128.size a
  inb_S64x50x1000_S1x50x1000_60_0_0 : ∀ a, (![60, 0, 0] : Fin 3 → Nat) a + S1x50x1000.size a ≤ S64x50x1000.size a
  inb_S64x50x128_S1x50x128_60_0_0 : ∀ a, (![60, 0, 0] : Fin 3 → Nat) a + S1x50x128.size a ≤ S64x50x128.size a
  inb_S64x50x1000_S1x50x1000_61_0_0 : ∀ a, (![61, 0, 0] : Fin 3 → Nat) a + S1x50x1000.size a ≤ S64x50x1000.size a
  inb_S64x50x128_S1x50x128_61_0_0 : ∀ a, (![61, 0, 0] : Fin 3 → Nat) a + S1x50x128.size a ≤ S64x50x128.size a
  inb_S64x50x1000_S1x50x1000_62_0_0 : ∀ a, (![62, 0, 0] : Fin 3 → Nat) a + S1x50x1000.size a ≤ S64x50x1000.size a
  inb_S64x50x128_S1x50x128_62_0_0 : ∀ a, (![62, 0, 0] : Fin 3 → Nat) a + S1x50x128.size a ≤ S64x50x128.size a
  inb_S64x50x1000_S1x50x1000_63_0_0 : ∀ a, (![63, 0, 0] : Fin 3 → Nat) a + S1x50x1000.size a ≤ S64x50x1000.size a
  inb_S64x50x128_S1x50x128_63_0_0 : ∀ a, (![63, 0, 0] : Fin 3 → Nat) a + S1x50x128.size a ≤ S64x50x128.size a
  dot_S50x1000_S1000x128_S50x128_1_0_0_1_n_n_wf : DotDims.WF S50x1000 S1000x128 S50x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x50x1000.size a ≤ S1024x50x1000.size a
  hwx0_0 : ∀ i : grid0.Coords, EltTy.bits .f32 = 32 ∨ (Rect.block (s := S1024x50x1000) S64x50x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x50x128.size a ≤ S1024x50x128.size a
  hwx0_2 : ∀ i : grid0.Coords, EltTy.bits .f32 = 32 ∨ (Rect.block (s := S1024x50x128) S64x50x128.size (cc0_transform_2 i) (hinb0_2 i)).WholeWords (EltTy.packing .f32)

variable [Facts₀]

def dot_S50x1000_S1000x128_S50x128_1_0_0_1_n_n : DotDims S50x1000 S1000x128 S50x128 where
  lhsContracting := [1]
  rhsContracting := [0]
  lhsNonContracting := [0]
  rhsNonContracting := [1]
  lhsBatch := []
  rhsBatch := []
  wf := dot_S50x1000_S1000x128_S50x128_1_0_0_1_n_n_wf

abbrev win0_0 : Pipeline.Window sig grid0 :=
  Pipeline.Window.ofSpec (Memref.whole main_arg0) S64x50x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x50x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x50x1000 : Shape := ⟨3, ![1024, 50, 1000]⟩
abbrev S1000x128 : Shape := ⟨2, ![1000, 128]⟩
abbrev S_ : Shape := ⟨0, ![]⟩
abbrev S1 : Shape := ⟨1, ![1]⟩
abbrev S128 : Shape := ⟨1, ![128]⟩
abbrev S1024x50x128 : Shape := ⟨3, ![1024, 50, 128]⟩

abbrev nBuf : Space → Nat
  | .hbm => 8
  | .vmem => 0
  | .smem => 0
  | _ => 0

abbrev bufTy : (tb : Table) → Fin (tcTables nBuf tb) → BufTy
  | .hbm, ⟨0, _⟩ => ⟨S1024x50x1000, .f32⟩
  | .hbm, ⟨1, _⟩ => ⟨S1000x128, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S128, .f32⟩
  | .hbm, ⟨6, _⟩ => ⟨S1000x128, .f32⟩
  | .hbm, ⟨7, _⟩ => ⟨S1024x50x128, .f32⟩
  | _, _ => ⟨S1024x50x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S128 : S_.BroadcastsInDim S128 (![] : Fin 0 → Fin S128.rank)
  scatter_S1000x128_S1_S128_0_0_0_0_wf : ScatterDims.WF S1000x128 S1 S128 [0] [0] [0] 0
  dot_S1024x50x1000_S1000x128_S1024x50x128_2_0_01_1_n_n_wf : DotDims.WF S1024x50x1000 S1000x128 S1024x50x128 [2] [0] [0, 1] [1] [] []

variable [Facts₀]

def scatter_S1000x128_S1_S128_0_0_0_0 : ScatterDims S1000x128 S1 S128 where
  updateWindowDims := [0]
  insertedWindowDims := [0]
  scatterDimsToOperandDims := [0]
  indexVectorDim := 0
  wf := scatter_S1000x128_S1_S128_0_0_0_0_wf
def dot_S1024x50x1000_S1000x128_S1024x50x128_2_0_01_1_n_n : DotDims S1024x50x1000 S1000x128 S1024x50x128 where
  lhsContracting := [2]
  rhsContracting := [0]
  lhsNonContracting := [0, 1]
  rhsNonContracting := [1]
  lhsBatch := []
  rhsBatch := []
  wf := dot_S1024x50x1000_S1000x128_S1024x50x128_2_0_01_1_n_n_wf

class Facts : Prop extends Facts₀ where

variable [Facts]
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.Slab.lean ====
/-
  One slab of the kernel's block, and the table as the kernel uses it.

  At a grid point the body reads the table once, replaces its row 0 by zeros, and then, for each of the 64 batch
  entries of the block, multiplies that entry's [50, 1000] rows by the [1000, 128] table into a zero accumulator and
  stores the [50, 128] product as the entry's slab of the output block.  A change of float format is the identity on
  the extended reals, so the slab at (r, d) is the sum over k of x(r, k) · W(k, d), and the table the kernel
  multiplies by is W(k, d) = 0 for k = 0 and the argument's entry otherwise.
-/
import proofs.«147626_g38534446579910_cont_8to1_b_497_22_alg».proof.Proof.Gen.KernelIdeal.Skeleton
import Idealize.ShloMosaic.Lib.ValueIdx
import proofs.«147626_g38534446579910_cont_8to1_b_497_22_alg».proof.Proof.LibSoftplus
import Idealize.ShloMosaic.Lib.Pipeline.Value
import Idealize.ShloMosaic.PureOps.Ideal.Laws

noncomputable section

namespace Cert.KernelIdeal.Embed

open Cert.KernelIdeal Cert.KernelIdeal.Gen Idealize.ShloMosaic Idealize.ShloMosaic.ValueIdx

/-- A select whose condition is "the row number is 0", the row number below 1000, is the `if` on the row number. -/
theorem select_row0 {α : Type} (k : Nat) (hk : k < 1000) (A B : α) :
    Scalar.select (IntOp.cmpi .eq (BitVec.ofNat 32 k) 0#32) A B = if k = 0 then A else B := by
  unfold Scalar.select IntOp.cmpi
  by_cases h : k = 0
  · subst h; rfl
  · have hne : (BitVec.ofNat 32 k == 0#32) = false := by
      rw [beq_eq_false_iff_ne]
      intro e
      have e' := congrArg BitVec.toNat e
      rw [BitVec.toNat_ofNat] at e'
      have : k % 2 ^ 32 = k := Nat.mod_eq_of_lt (by omega)
      rw [this] at e'
      exact h e'
    simp only [hne, if_neg h]
    rfl

/-- The table the kernel multiplies by: the argument's block with row 0 replaced by zeros. -/
theorem maskedTable_apply (v0 : FVec Ideal S1000x128 .f32) (k : Fin 1000) (d : Fin 128) :
    k0_pay2 (F := Ideal) v0 (ix2 k d) = if k.val = 0 then (0 : EReal) else v0 (ix2 k d) := by
  unfold k0_pay2
  show Scalar.select (IntOp.cmpi .eq (iota .tc S1000x128 32 [0] iota_S1000x128_d0_w32 (ix2 k d)) 0#32)
      (Ideal.ofBits .f32 0x00000000#32) (v0 (ix2 k d)) = _
  rw [iota_single_apply, Ideal.ofBits_zero_f32]
  exact select_row0 k.val k.isLt _ _

/-- One batch entry's slab: its [1, 50, 1000] rows times the table, into a zero accumulator, as a [1, 50, 128] piece. -/
def slab {F : FTy → Type} [FloatOps F] (W : FVec F S1000x128 .bf16) (x : Vec F S1x50x1000 .f32) : FVec F S1x50x128 .f32 :=
  shapeCast S1x50x128
    (matmul dot_S50x1000_S1000x128_S50x128_1_0_0_1_n_n none
      (truncf .bf16 (shapeCast S50x1000 x shapeCasts_S1x50x1000_S50x1000) bitsLt_bf16_f32) W
      (constant S50x128 .f32 0x00000000#32))
    shapeCasts_S50x128_S1x50x128

/-- The slab at (0, r, d) is the sum over k of the rows' (0, r, k) times the table's (k, d). -/
theorem slab_apply (W : FVec Ideal S1000x128 .bf16) (x : FVec Ideal S1x50x1000 .f32) (r : Fin 50) (d : Fin 128) :
    slab (F := Ideal) W x (ix3 (0 : Fin 1) r d) = ∑ k : Fin 1000, x (ix3 (0 : Fin 1) r k) * W (ix2 k d) := by
  unfold slab
  refine (shapeCast_addUnit_apply ![50, 128] _ shapeCasts_S50x128_S1x50x128 (ix3 (0 : Fin 1) r d)).trans ?_
  have e : (fun a : Fin 2 => (ix3 (0 : Fin 1) r d) a.succ) = ix2 r d :=
    funext fun a => by match a with | ⟨0, _⟩ => rfl | ⟨1, _⟩ => rfl
  rw [e]
  refine (Cert.Lib.Softplus.matmul0_plain_apply (R := 50) (K := 1000) (N := 128) dot_S50x1000_S1000x128_S50x128_1_0_0_1_n_n rfl none _ W r d).trans ?_
  refine Finset.sum_congr rfl fun k _ => ?_
  congr 1
  show shapeCast S50x1000 x shapeCasts_S1x50x1000_S50x1000 (ix2 r k) = _
  refine (shapeCast_dropUnit_apply ![50, 1000] x shapeCasts_S1x50x1000_S50x1000 (ix2 r k)).trans ?_
  exact congrArg x (funext fun a => by match a with | ⟨0, _⟩ => rfl | ⟨1, _⟩ => rfl | ⟨2, _⟩ => rfl)

end Cert.KernelIdeal.Embed

end
-- ==== Proof.BlockFn.lean ====
/-
  The output block as one function of its index, and the slabs as its restrictions.

  Entry (j, r, d) of the [64, 50, 128] output block is the sum over k of the input block's (j, r, k) times the table's
  (k, d).  Batch entry j's slab, computed from entry j of the input block alone, is the restriction of that function
  to the slab's indices (j, ·, ·).
-/
import proofs.«147626_g38534446579910_cont_8to1_b_497_22_alg».proof.Proof.Gen.KernelIdeal.Frame
import proofs.«147626_g38534446579910_cont_8to1_b_497_22_alg».proof.Proof.Slab

set_option maxRecDepth 16384

noncomputable section

namespace Cert.KernelIdeal.Embed

open Cert.KernelIdeal Cert.KernelIdeal.Gen Idealize.ShloMosaic Idealize.ShloMosaic.ValueIdx

/-- Rows (j, r, ·) of a [64, 50, 1000] block against column (·, d) of a [1000, 128] table. -/
def prodAt (x0 : FVec Ideal S64x50x1000 .f32) (W : FVec Ideal S1000x128 .bf16) (j : Fin 64) (r : Fin 50) (d : Fin 128) : EReal :=
  ∑ k : Fin 1000, x0 (ix3 j r k) * W (ix2 k d)

/-- The output block as one function of its index. -/
def blockFn (x0 : FVec Ideal S64x50x1000 .f32) (W : FVec Ideal S1000x128 .bf16) : S64x50x128.Idx → EReal :=
  fun y => prodAt x0 W ⟨(y 0).val, (y 0).isLt⟩ ⟨(y 1).val, (y 1).isLt⟩ ⟨(y 2).val, (y 2).isLt⟩

/-- Entry j's slab, computed from entry j of the input block, is the block function on slab j. -/
theorem slab_piece (x0 : FVec Ideal S64x50x1000 .f32) (W : FVec Ideal S1000x128 .bf16) (j : Nat) (hj : j < 64)
    (inbI : ∀ a, (![j, 0, 0] : Fin 3 → Nat) a + S1x50x1000.size a ≤ S64x50x1000.size a)
    (inbO : ∀ a, (![j, 0, 0] : Fin 3 → Nat) a + S1x50x128.size a ≤ S64x50x128.size a)
    (x : S1x50x128.Idx) :
    slab (F := Ideal) W (View.ld x0 (Rect.unit (s := S64x50x1000) ![j, 0, 0] S1x50x1000.size inbI)) x
      = blockFn x0 W ((Rect.unit (s := S64x50x128) ![j, 0, 0] S1x50x128.size inbO).emb x) := by
  obtain ⟨r, d, rfl⟩ : ∃ (r : Fin 50) (d : Fin 128), x = ix3 (0 : Fin 1) r d :=
    ⟨x 1, x 2, funext fun a => by
      match a with
      | ⟨0, _⟩ => exact Subsingleton.elim (α := Fin 1) _ _
      | ⟨1, _⟩ => rfl
      | ⟨2, _⟩ => rfl⟩
  rw [slab_apply]
  unfold blockFn prodAt
  refine Finset.sum_congr rfl fun k _ => ?_
  congr 1
  · show x0 _ = x0 _
    refine congrArg x0 (funext fun a => Fin.ext ?_)
    match a with
    | ⟨0, _⟩ => rfl
    | ⟨1, _⟩ => rfl
    | ⟨2, _⟩ => show 0 + 1 * k.val = k.val; omega
  · refine congrArg W (funext fun a => Fin.ext ?_)
    match a with
    | ⟨0, _⟩ => rfl
    | ⟨1, _⟩ => show d.val = 0 + 1 * d.val; omega

end Cert.KernelIdeal.Embed

end
-- ==== Proof.Block.lean ====
/-
  What the body leaves in the output block.

  The body's 64 stores tile the [64, 50, 128] output block by its batch entries: store j writes entry j's slab, the
  product of the input block's entry j (its [50, 1000] rows) with the table.  Every store's value is the restriction,
  to its slab, of the block function (entry (j, r, d) the sum over k of the input block's (j, r, k) times the table's
  (k, d)), and the slabs cover the block: the block the stores leave is that function.
-/
import proofs.«147626_g38534446579910_cont_8to1_b_497_22_alg».proof.Proof.BlockFn

set_option maxRecDepth 16384

noncomputable section

namespace Cert.KernelIdeal.Embed

open Cert.KernelIdeal Cert.KernelIdeal.Gen Idealize.ShloMosaic Idealize.ShloMosaic.ValueIdx

/-! Each store's value is a slab: the same product, of its own batch entry with the one table. -/

theorem pay1_eq (W : FVec Ideal S1000x128 .bf16) (v : Vec Ideal S1x50x1000 .f32) : k0_pay1 (F := Ideal) W v = slab W v := rfl
theorem pay6_eq (W : FVec Ideal S1000x128 .bf16) (v : Vec Ideal S1x50x1000 .f32) : k0_pay6 (F := Ideal) W v = slab W v := rfl
theorem pay7_eq (W : FVec Ideal S1000x128 .bf16) (v : Vec Ideal S1x50x1000 .f32) : k0_pay7 (F := Ideal) W v = slab W v := rfl
theorem pay8_eq (W : FVec Ideal S1000x128 .bf16) (v : Vec Ideal S1x50x1000 .f32) : k0_pay8 (F := Ideal) W v = slab W v := rfl
theorem pay9_eq (W : FVec Ideal S1000x128 .bf16) (v : Vec Ideal S1x50x1000 .f32) : k0_pay9 (F := Ideal) W v = slab W v := rfl
theorem pay10_eq (W : FVec Ideal S1000x128 .bf16) (v : Vec Ideal S1x50x1000 .f32) : k0_pay10 (F := Ideal) W v = slab W v := rfl
theorem pay11_eq (W : FVec Ideal S1000x128 .bf16) (v : Vec Ideal S1x50x1000 .f32) : k0_pay11 (F := Ideal) W v = slab W v := rfl
theorem pay12_eq (W : FVec Ideal S1000x128 .bf16) (v : Vec Ideal S1x50x1000 .f32) : k0_pay12 (F := Ideal) W v = slab W v := rfl
theorem pay13_eq (W : FVec Ideal S1000x128 .bf16) (v : Vec Ideal S1x50x1000 .f32) : k0_pay13 (F := Ideal) W v = slab W v := rfl
theorem pay14_eq (W : FVec Ideal S1000x128 .bf16) (v : Vec Ideal S1x50x1000 .f32) : k0_pay14 (F := Ideal) W v = slab W v := rfl
theorem pay15_eq (W : FVec Ideal S1000x128 .bf16) (v : Vec Ideal S1x50x1000 .f32) : k0_pay15 (F := Ideal) W v = slab W v := rfl
theorem pay16_eq (W : FVec Ideal S1000x128 .bf16) (v : Vec Ideal S1x50x1000 .f32) : k0_pay16 (F := Ideal) W v = slab W v := rfl
theorem pay17_eq (W : FVec Ideal S1000x128 .bf16) (v : Vec Ideal S1x50x1000 .f32) : k0_pay17 (F := Ideal) W v = slab W v := rfl
theorem pay18_eq (W : FVec Ideal S1000x128 .bf16) (v : Vec Ideal S1x50x1000 .f32) : k0_pay18 (F := Ideal) W v = slab W v := rfl
theorem pay19_eq (W : FVec Ideal S1000x128 .bf16) (v : Vec Ideal S1x50x1000 .f32) : k0_pay19 (F := Ideal) W v = slab W v := rfl
theorem pay20_eq (W : FVec Ideal S1000x128 .bf16) (v : Vec Ideal S1x50x1000 .f32) : k0_pay20 (F := Ideal) W v = slab W v := rfl
theorem pay21_eq (W : FVec Ideal S1000x128 .bf16) (v : Vec Ideal S1x50x1000 .f32) : k0_pay21 (F := Ideal) W v = slab W v := rfl
theorem pay22_eq (W : FVec Ideal S1000x128 .bf16) (v : Vec Ideal S1x50x1000 .f32) : k0_pay22 (F := Ideal) W v = slab W v := rfl
theorem pay23_eq (W : FVec Ideal S1000x128 .bf16) (v : Vec Ideal S1x50x1000 .f32) : k0_pay23 (F := Ideal) W v = slab W v := rfl
theorem pay24_eq (W : FVec Ideal S1000x128 .bf16) (v : Vec Ideal S1x50x1000 .f32) : k0_pay24 (F := Ideal) W v = slab W v := rfl
theorem pay25_eq (W : FVec Ideal S1000x128 .bf16) (v : Vec Ideal S1x50x1000 .f32) : k0_pay25 (F := Ideal) W v = slab W v := rfl
theorem pay26_eq (W : FVec Ideal S1000x128 .bf16) (v : Vec Ideal S1x50x1000 .f32) : k0_pay26 (F := Ideal) W v = slab W v := rfl
theorem pay27_eq (W : FVec Ideal S1000x128 .bf16) (v : Vec Ideal S1x50x1000 .f32) : k0_pay27 (F := Ideal) W v = slab W v := rfl
theorem pay28_eq (W : FVec Ideal S1000x128 .bf16) (v : Vec Ideal S1x50x1000 .f32) : k0_pay28 (F := Ideal) W v = slab W v := rfl
theorem pay29_eq (W : FVec Ideal S1000x128 .bf16) (v : Vec Ideal S1x50x1000 .f32) : k0_pay29 (F := Ideal) W v = slab W v := rfl
theorem pay30_eq (W : FVec Ideal S1000x128 .bf16) (v : Vec Ideal S1x50x1000 .f32) : k0_pay30 (F := Ideal) W v = slab W v := rfl
theorem pay31_eq (W : FVec Ideal S1000x128 .bf16) (v : Vec Ideal S1x50x1000 .f32) : k0_pay31 (F := Ideal) W v = slab W v := rfl
theorem pay32_eq (W : FVec Ideal S1000x128 .bf16) (v : Vec Ideal S1x50x1000 .f32) : k0_pay32 (F := Ideal) W v = slab W v := rfl
theorem pay33_eq (W : FVec Ideal S1000x128 .bf16) (v : Vec Ideal S1x50x1000 .f32) : k0_pay33 (F := Ideal) W v = slab W v := rfl
theorem pay34_eq (W : FVec Ideal S1000x128 .bf16) (v : Vec Ideal S1x50x1000 .f32) : k0_pay34 (F := Ideal) W v = slab W v := rfl
theorem pay35_eq (W : FVec Ideal S1000x128 .bf16) (v : Vec Ideal S1x50x1000 .f32) : k0_pay35 (F := Ideal) W v = slab W v := rfl
theorem pay36_eq (W : FVec Ideal S1000x128 .bf16) (v : Vec Ideal S1x50x1000 .f32) : k0_pay36 (F := Ideal) W v = slab W v := rfl
theorem pay37_eq (W : FVec Ideal S1000x128 .bf16) (v : Vec Ideal S1x50x1000 .f32) : k0_pay37 (F := Ideal) W v = slab W v := rfl
theorem pay38_eq (W : FVec Ideal S1000x128 .bf16) (v : Vec Ideal S1x50x1000 .f32) : k0_pay38 (F := Ideal) W v = slab W v := rfl
theorem pay39_eq (W : FVec Ideal S1000x128 .bf16) (v : Vec Ideal S1x50x1000 .f32) : k0_pay39 (F := Ideal) W v = slab W v := rfl
theorem pay40_eq (W : FVec Ideal S1000x128 .bf16) (v : Vec Ideal S1x50x1000 .f32) : k0_pay40 (F := Ideal) W v = slab W v := rfl
theorem pay41_eq (W : FVec Ideal S1000x128 .bf16) (v : Vec Ideal S1x50x1000 .f32) : k0_pay41 (F := Ideal) W v = slab W v := rfl
theorem pay42_eq (W : FVec Ideal S1000x128 .bf16) (v : Vec Ideal S1x50x1000 .f32) : k0_pay42 (F := Ideal) W v = slab W v := rfl
theorem pay43_eq (W : FVec Ideal S1000x128 .bf16) (v : Vec Ideal S1x50x1000 .f32) : k0_pay43 (F := Ideal) W v = slab W v := rfl
theorem pay44_eq (W : FVec Ideal S1000x128 .bf16) (v : Vec Ideal S1x50x1000 .f32) : k0_pay44 (F := Ideal) W v = slab W v := rfl
theorem pay45_eq (W : FVec Ideal S1000x128 .bf16) (v : Vec Ideal S1x50x1000 .f32) : k0_pay45 (F := Ideal) W v = slab W v := rfl
theorem pay46_eq (W : FVec Ideal S1000x128 .bf16) (v : Vec Ideal S1x50x1000 .f32) : k0_pay46 (F := Ideal) W v = slab W v := rfl
theorem pay47_eq (W : FVec Ideal S1000x128 .bf16) (v : Vec Ideal S1x50x1000 .f32) : k0_pay47 (F := Ideal) W v = slab W v := rfl
theorem pay48_eq (W : FVec Ideal S1000x128 .bf16) (v : Vec Ideal S1x50x1000 .f32) : k0_pay48 (F := Ideal) W v = slab W v := rfl
theorem pay49_eq (W : FVec Ideal S1000x128 .bf16) (v : Vec Ideal S1x50x1000 .f32) : k0_pay49 (F := Ideal) W v = slab W v := rfl
theorem pay50_eq (W : FVec Ideal S1000x128 .bf16) (v : Vec Ideal S1x50x1000 .f32) : k0_pay50 (F := Ideal) W v = slab W v := rfl
theorem pay51_eq (W : FVec Ideal S1000x128 .bf16) (v : Vec Ideal S1x50x1000 .f32) : k0_pay51 (F := Ideal) W v = slab W v := rfl
theorem pay52_eq (W : FVec Ideal S1000x128 .bf16) (v : Vec Ideal S1x50x1000 .f32) : k0_pay52 (F := Ideal) W v = slab W v := rfl
theorem pay53_eq (W : FVec Ideal S1000x128 .bf16) (v : Vec Ideal S1x50x1000 .f32) : k0_pay53 (F := Ideal) W v = slab W v := rfl
theorem pay54_eq (W : FVec Ideal S1000x128 .bf16) (v : Vec Ideal S1x50x1000 .f32) : k0_pay54 (F := Ideal) W v = slab W v := rfl
theorem pay55_eq (W : FVec Ideal S1000x128 .bf16) (v : Vec Ideal S1x50x1000 .f32) : k0_pay55 (F := Ideal) W v = slab W v := rfl
theorem pay56_eq (W : FVec Ideal S1000x128 .bf16) (v : Vec Ideal S1x50x1000 .f32) : k0_pay56 (F := Ideal) W v = slab W v := rfl
theorem pay57_eq (W : FVec Ideal S1000x128 .bf16) (v : Vec Ideal S1x50x1000 .f32) : k0_pay57 (F := Ideal) W v = slab W v := rfl
theorem pay58_eq (W : FVec Ideal S1000x128 .bf16) (v : Vec Ideal S1x50x1000 .f32) : k0_pay58 (F := Ideal) W v = slab W v := rfl
theorem pay59_eq (W : FVec Ideal S1000x128 .bf16) (v : Vec Ideal S1x50x1000 .f32) : k0_pay59 (F := Ideal) W v = slab W v := rfl
theorem pay60_eq (W : FVec Ideal S1000x128 .bf16) (v : Vec Ideal S1x50x1000 .f32) : k0_pay60 (F := Ideal) W v = slab W v := rfl
theorem pay61_eq (W : FVec Ideal S1000x128 .bf16) (v : Vec Ideal S1x50x1000 .f32) : k0_pay61 (F := Ideal) W v = slab W v := rfl
theorem pay62_eq (W : FVec Ideal S1000x128 .bf16) (v : Vec Ideal S1x50x1000 .f32) : k0_pay62 (F := Ideal) W v = slab W v := rfl
theorem pay63_eq (W : FVec Ideal S1000x128 .bf16) (v : Vec Ideal S1x50x1000 .f32) : k0_pay63 (F := Ideal) W v = slab W v := rfl
theorem pay64_eq (W : FVec Ideal S1000x128 .bf16) (v : Vec Ideal S1x50x1000 .f32) : k0_pay64 (F := Ideal) W v = slab W v := rfl
theorem pay65_eq (W : FVec Ideal S1000x128 .bf16) (v : Vec Ideal S1x50x1000 .f32) : k0_pay65 (F := Ideal) W v = slab W v := rfl
theorem pay3_eq (v0 : Vec Ideal S1000x128 .f32) (v : Vec Ideal S1x50x1000 .f32) : k0_pay3 (F := Ideal) v0 v = slab (k0_pay2 v0) v := rfl
theorem pay4_eq (v0 : Vec Ideal S1000x128 .f32) (v : Vec Ideal S1x50x1000 .f32) : k0_pay4 (F := Ideal) v0 v = slab (k0_pay2 v0) v := rfl
theorem pay5_eq (v0 : Vec Ideal S1000x128 .f32) (v : Vec Ideal S1x50x1000 .f32) : k0_pay5 (F := Ideal) v0 v = slab (k0_pay2 v0) v := rfl

set_option maxHeartbeats 1000000 in
/-- The 64 slabs, stored through the 64 rectangles that tile the block by batch entries (last store first), leave the
    block function. -/
theorem slabs_canon (x0 : FVec Ideal S64x50x1000 .f32) (W : FVec Ideal S1000x128 .bf16) (y : S64x50x128.Idx) :
    View.canon (Val := Elt Ideal) (e := .f32)
      ([⟨r0_128, slab W (View.ld x0 r0_127)⟩,
        ⟨r0_126, slab W (View.ld x0 r0_125)⟩,
        ⟨r0_124, slab W (View.ld x0 r0_123)⟩,
        ⟨r0_122, slab W (View.ld x0 r0_121)⟩,
        ⟨r0_120, slab W (View.ld x0 r0_119)⟩,
        ⟨r0_118, slab W (View.ld x0 r0_117)⟩,
        ⟨r0_116, slab W (View.ld x0 r0_115)⟩,
        ⟨r0_114, slab W (View.ld x0 r0_113)⟩,
        ⟨r0_112, slab W (View.ld x0 r0_111)⟩,
        ⟨r0_110, slab W (View.ld x0 r0_109)⟩,
        ⟨r0_108, slab W (View.ld x0 r0_107)⟩,
        ⟨r0_106, slab W (View.ld x0 r0_105)⟩,
        ⟨r0_104, slab W (View.ld x0 r0_103)⟩,
        ⟨r0_102, slab W (View.ld x0 r0_101)⟩,
        ⟨r0_100, slab W (View.ld x0 r0_99)⟩,
        ⟨r0_98, slab W (View.ld x0 r0_97)⟩,
        ⟨r0_96, slab W (View.ld x0 r0_95)⟩,
        ⟨r0_94, slab W (View.ld x0 r0_93)⟩,
        ⟨r0_92, slab W (View.ld x0 r0_91)⟩,
        ⟨r0_90, slab W (View.ld x0 r0_89)⟩,
        ⟨r0_88, slab W (View.ld x0 r0_87)⟩,
        ⟨r0_86, slab W (View.ld x0 r0_85)⟩,
        ⟨r0_84, slab W (View.ld x0 r0_83)⟩,
        ⟨r0_82, slab W (View.ld x0 r0_81)⟩,
        ⟨r0_80, slab W (View.ld x0 r0_79)⟩,
        ⟨r0_78, slab W (View.ld x0 r0_77)⟩,
        ⟨r0_76, slab W (View.ld x0 r0_75)⟩,
        ⟨r0_74, slab W (View.ld x0 r0_73)⟩,
        ⟨r0_72, slab W (View.ld x0 r0_71)⟩,
        ⟨r0_70, slab W (View.ld x0 r0_69)⟩,
        ⟨r0_68, slab W (View.ld x0 r0_67)⟩,
        ⟨r0_66, slab W (View.ld x0 r0_65)⟩,
        ⟨r0_64, slab W (View.ld x0 r0_63)⟩,
        ⟨r0_62, slab W (View.ld x0 r0_61)⟩,
        ⟨r0_60, slab W (View.ld x0 r0_59)⟩,
        ⟨r0_58, slab W (View.ld x0 r0_57)⟩,
        ⟨r0_56, slab W (View.ld x0 r0_55)⟩,
        ⟨r0_54, slab W (View.ld x0 r0_53)⟩,
        ⟨r0_52, slab W (View.ld x0 r0_51)⟩,
        ⟨r0_50, slab W (View.ld x0 r0_49)⟩,
        ⟨r0_48, slab W (View.ld x0 r0_47)⟩,
        ⟨r0_46, slab W (View.ld x0 r0_45)⟩,
        ⟨r0_44, slab W (View.ld x0 r0_43)⟩,
        ⟨r0_42, slab W (View.ld x0 r0_41)⟩,
        ⟨r0_40, slab W (View.ld x0 r0_39)⟩,
        ⟨r0_38, slab W (View.ld x0 r0_37)⟩,
        ⟨r0_36, slab W (View.ld x0 r0_35)⟩,
        ⟨r0_34, slab W (View.ld x0 r0_33)⟩,
        ⟨r0_32, slab W (View.ld x0 r0_31)⟩,
        ⟨r0_30, slab W (View.ld x0 r0_29)⟩,
        ⟨r0_28, slab W (View.ld x0 r0_27)⟩,
        ⟨r0_26, slab W (View.ld x0 r0_25)⟩,
        ⟨r0_24, slab W (View.ld x0 r0_23)⟩,
        ⟨r0_22, slab W (View.ld x0 r0_21)⟩,
        ⟨r0_20, slab W (View.ld x0 r0_19)⟩,
        ⟨r0_18, slab W (View.ld x0 r0_17)⟩,
        ⟨r0_16, slab W (View.ld x0 r0_15)⟩,
        ⟨r0_14, slab W (View.ld x0 r0_13)⟩,
        ⟨r0_12, slab W (View.ld x0 r0_11)⟩,
        ⟨r0_10, slab W (View.ld x0 r0_9)⟩,
        ⟨r0_8, slab W (View.ld x0 r0_7)⟩,
        ⟨r0_6, slab W (View.ld x0 r0_5)⟩,
        ⟨r0_4, slab W (View.ld x0 r0_3)⟩,
        ⟨r0_2, slab W (View.ld x0 r0_1)⟩] : List (View.Piece (Elt Ideal) S64x50x128 .f32)) y
      = blockFn x0 W y := by
  refine View.canon_apply_of_pieces (Val := Elt Ideal) (S := S64x50x128) (e := .f32) (blockFn x0 W) _ ?_ y ?_
  · intro p hp x
    rcases List.mem_cons.mp hp with rfl | hp
    · exact slab_piece x0 W 63 (by decide) inb_S64x50x1000_S1x50x1000_63_0_0 inb_S64x50x128_S1x50x128_63_0_0 x
    rcases List.mem_cons.mp hp with rfl | hp
    · exact slab_piece x0 W 62 (by decide) inb_S64x50x1000_S1x50x1000_62_0_0 inb_S64x50x128_S1x50x128_62_0_0 x
    rcases List.mem_cons.mp hp with rfl | hp
    · exact slab_piece x0 W 61 (by decide) inb_S64x50x1000_S1x50x1000_61_0_0 inb_S64x50x128_S1x50x128_61_0_0 x
    rcases List.mem_cons.mp hp with rfl | hp
    · exact slab_piece x0 W 60 (by decide) inb_S64x50x1000_S1x50x1000_60_0_0 inb_S64x50x128_S1x50x128_60_0_0 x
    rcases List.mem_cons.mp hp with rfl | hp
    · exact slab_piece x0 W 59 (by decide) inb_S64x50x1000_S1x50x1000_59_0_0 inb_S64x50x128_S1x50x128_59_0_0 x
    rcases List.mem_cons.mp hp with rfl | hp
    · exact slab_piece x0 W 58 (by decide) inb_S64x50x1000_S1x50x1000_58_0_0 inb_S64x50x128_S1x50x128_58_0_0 x
    rcases List.mem_cons.mp hp with rfl | hp
    · exact slab_piece x0 W 57 (by decide) inb_S64x50x1000_S1x50x1000_57_0_0 inb_S64x50x128_S1x50x128_57_0_0 x
    rcases List.mem_cons.mp hp with rfl | hp
    · exact slab_piece x0 W 56 (by decide) inb_S64x50x1000_S1x50x1000_56_0_0 inb_S64x50x128_S1x50x128_56_0_0 x
    rcases List.mem_cons.mp hp with rfl | hp
    · exact slab_piece x0 W 55 (by decide) inb_S64x50x1000_S1x50x1000_55_0_0 inb_S64x50x128_S1x50x128_55_0_0 x
    rcases List.mem_cons.mp hp with rfl | hp
    · exact slab_piece x0 W 54 (by decide) inb_S64x50x1000_S1x50x1000_54_0_0 inb_S64x50x128_S1x50x128_54_0_0 x
    rcases List.mem_cons.mp hp with rfl | hp
    · exact slab_piece x0 W 53 (by decide) inb_S64x50x1000_S1x50x1000_53_0_0 inb_S64x50x128_S1x50x128_53_0_0 x
    rcases List.mem_cons.mp hp with rfl | hp
    · exact slab_piece x0 W 52 (by decide) inb_S64x50x1000_S1x50x1000_52_0_0 inb_S64x50x128_S1x50x128_52_0_0 x
    rcases List.mem_cons.mp hp with rfl | hp
    · exact slab_piece x0 W 51 (by decide) inb_S64x50x1000_S1x50x1000_51_0_0 inb_S64x50x128_S1x50x128_51_0_0 x
    rcases List.mem_cons.mp hp with rfl | hp
    · exact slab_piece x0 W 50 (by decide) inb_S64x50x1000_S1x50x1000_50_0_0 inb_S64x50x128_S1x50x128_50_0_0 x
    rcases List.mem_cons.mp hp with rfl | hp
    · exact slab_piece x0 W 49 (by decide) inb_S64x50x1000_S1x50x1000_49_0_0 inb_S64x50x128_S1x50x128_49_0_0 x
    rcases List.mem_cons.mp hp with rfl | hp
    · exact slab_piece x0 W 48 (by decide) inb_S64x50x1000_S1x50x1000_48_0_0 inb_S64x50x128_S1x50x128_48_0_0 x
    rcases List.mem_cons.mp hp with rfl | hp
    · exact slab_piece x0 W 47 (by decide) inb_S64x50x1000_S1x50x1000_47_0_0 inb_S64x50x128_S1x50x128_47_0_0 x
    rcases List.mem_cons.mp hp with rfl | hp
    · exact slab_piece x0 W 46 (by decide) inb_S64x50x1000_S1x50x1000_46_0_0 inb_S64x50x128_S1x50x128_46_0_0 x
    rcases List.mem_cons.mp hp with rfl | hp
    · exact slab_piece x0 W 45 (by decide) inb_S64x50x1000_S1x50x1000_45_0_0 inb_S64x50x128_S1x50x128_45_0_0 x
    rcases List.mem_cons.mp hp with rfl | hp
    · exact slab_piece x0 W 44 (by decide) inb_S64x50x1000_S1x50x1000_44_0_0 inb_S64x50x128_S1x50x128_44_0_0 x
    rcases List.mem_cons.mp hp with rfl | hp
    · exact slab_piece x0 W 43 (by decide) inb_S64x50x1000_S1x50x1000_43_0_0 inb_S64x50x128_S1x50x128_43_0_0 x
    rcases List.mem_cons.mp hp with rfl | hp
    · exact slab_piece x0 W 42 (by decide) inb_S64x50x1000_S1x50x1000_42_0_0 inb_S64x50x128_S1x50x128_42_0_0 x
    rcases List.mem_cons.mp hp with rfl | hp
    · exact slab_piece x0 W 41 (by decide) inb_S64x50x1000_S1x50x1000_41_0_0 inb_S64x50x128_S1x50x128_41_0_0 x
    rcases List.mem_cons.mp hp with rfl | hp
    · exact slab_piece x0 W 40 (by decide) inb_S64x50x1000_S1x50x1000_40_0_0 inb_S64x50x128_S1x50x128_40_0_0 x
    rcases List.mem_cons.mp hp with rfl | hp
    · exact slab_piece x0 W 39 (by decide) inb_S64x50x1000_S1x50x1000_39_0_0 inb_S64x50x128_S1x50x128_39_0_0 x
    rcases List.mem_cons.mp hp with rfl | hp
    · exact slab_piece x0 W 38 (by decide) inb_S64x50x1000_S1x50x1000_38_0_0 inb_S64x50x128_S1x50x128_38_0_0 x
    rcases List.mem_cons.mp hp with rfl | hp
    · exact slab_piece x0 W 37 (by decide) inb_S64x50x1000_S1x50x1000_37_0_0 inb_S64x50x128_S1x50x128_37_0_0 x
    rcases List.mem_cons.mp hp with rfl | hp
    · exact slab_piece x0 W 36 (by decide) inb_S64x50x1000_S1x50x1000_36_0_0 inb_S64x50x128_S1x50x128_36_0_0 x
    rcases List.mem_cons.mp hp with rfl | hp
    · exact slab_piece x0 W 35 (by decide) inb_S64x50x1000_S1x50x1000_35_0_0 inb_S64x50x128_S1x50x128_35_0_0 x
    rcases List.mem_cons.mp hp with rfl | hp
    · exact slab_piece x0 W 34 (by decide) inb_S64x50x1000_S1x50x1000_34_0_0 inb_S64x50x128_S1x50x128_34_0_0 x
    rcases List.mem_cons.mp hp with rfl | hp
    · exact slab_piece x0 W 33 (by decide) inb_S64x50x1000_S1x50x1000_33_0_0 inb_S64x50x128_S1x50x128_33_0_0 x
    rcases List.mem_cons.mp hp with rfl | hp
    · exact slab_piece x0 W 32 (by decide) inb_S64x50x1000_S1x50x1000_32_0_0 inb_S64x50x128_S1x50x128_32_0_0 x
    rcases List.mem_cons.mp hp with rfl | hp
    · exact slab_piece x0 W 31 (by decide) inb_S64x50x1000_S1x50x1000_31_0_0 inb_S64x50x128_S1x50x128_31_0_0 x
    rcases List.mem_cons.mp hp with rfl | hp
    · exact slab_piece x0 W 30 (by decide) inb_S64x50x1000_S1x50x1000_30_0_0 inb_S64x50x128_S1x50x128_30_0_0 x
    rcases List.mem_cons.mp hp with rfl | hp
    · exact slab_piece x0 W 29 (by decide) inb_S64x50x1000_S1x50x1000_29_0_0 inb_S64x50x128_S1x50x128_29_0_0 x
    rcases List.mem_cons.mp hp with rfl | hp
    · exact slab_piece x0 W 28 (by decide) inb_S64x50x1000_S1x50x1000_28_0_0 inb_S64x50x128_S1x50x128_28_0_0 x
    rcases List.mem_cons.mp hp with rfl | hp
    · exact slab_piece x0 W 27 (by decide) inb_S64x50x1000_S1x50x1000_27_0_0 inb_S64x50x128_S1x50x128_27_0_0 x
    rcases List.mem_cons.mp hp with rfl | hp
    · exact slab_piece x0 W 26 (by decide) inb_S64x50x1000_S1x50x1000_26_0_0 inb_S64x50x128_S1x50x128_26_0_0 x
    rcases List.mem_cons.mp hp with rfl | hp
    · exact slab_piece x0 W 25 (by decide) inb_S64x50x1000_S1x50x1000_25_0_0 inb_S64x50x128_S1x50x128_25_0_0 x
    rcases List.mem_cons.mp hp with rfl | hp
    · exact slab_piece x0 W 24 (by decide) inb_S64x50x1000_S1x50x1000_24_0_0 inb_S64x50x128_S1x50x128_24_0_0 x
    rcases List.mem_cons.mp hp with rfl | hp
    · exact slab_piece x0 W 23 (by decide) inb_S64x50x1000_S1x50x1000_23_0_0 inb_S64x50x128_S1x50x128_23_0_0 x
    rcases List.mem_cons.mp hp with rfl | hp
    · exact slab_piece x0 W 22 (by decide) inb_S64x50x1000_S1x50x1000_22_0_0 inb_S64x50x128_S1x50x128_22_0_0 x
    rcases List.mem_cons.mp hp with rfl | hp
    · exact slab_piece x0 W 21 (by decide) inb_S64x50x1000_S1x50x1000_21_0_0 inb_S64x50x128_S1x50x128_21_0_0 x
    rcases List.mem_cons.mp hp with rfl | hp
    · exact slab_piece x0 W 20 (by decide) inb_S64x50x1000_S1x50x1000_20_0_0 inb_S64x50x128_S1x50x128_20_0_0 x
    rcases List.mem_cons.mp hp with rfl | hp
    · exact slab_piece x0 W 19 (by decide) inb_S64x50x1000_S1x50x1000_19_0_0 inb_S64x50x128_S1x50x128_19_0_0 x
    rcases List.mem_cons.mp hp with rfl | hp
    · exact slab_piece x0 W 18 (by decide) inb_S64x50x1000_S1x50x1000_18_0_0 inb_S64x50x128_S1x50x128_18_0_0 x
    rcases List.mem_cons.mp hp with rfl | hp
    · exact slab_piece x0 W 17 (by decide) inb_S64x50x1000_S1x50x1000_17_0_0 inb_S64x50x128_S1x50x128_17_0_0 x
    rcases List.mem_cons.mp hp with rfl | hp
    · exact slab_piece x0 W 16 (by decide) inb_S64x50x1000_S1x50x1000_16_0_0 inb_S64x50x128_S1x50x128_16_0_0 x
    rcases List.mem_cons.mp hp with rfl | hp
    · exact slab_piece x0 W 15 (by decide) inb_S64x50x1000_S1x50x1000_15_0_0 inb_S64x50x128_S1x50x128_15_0_0 x
    rcases List.mem_cons.mp hp with rfl | hp
    · exact slab_piece x0 W 14 (by decide) inb_S64x50x1000_S1x50x1000_14_0_0 inb_S64x50x128_S1x50x128_14_0_0 x
    rcases List.mem_cons.mp hp with rfl | hp
    · exact slab_piece x0 W 13 (by decide) inb_S64x50x1000_S1x50x1000_13_0_0 inb_S64x50x128_S1x50x128_13_0_0 x
    rcases List.mem_cons.mp hp with rfl | hp
    · exact slab_piece x0 W 12 (by decide) inb_S64x50x1000_S1x50x1000_12_0_0 inb_S64x50x128_S1x50x128_12_0_0 x
    rcases List.mem_cons.mp hp with rfl | hp
    · exact slab_piece x0 W 11 (by decide) inb_S64x50x1000_S1x50x1000_11_0_0 inb_S64x50x128_S1x50x128_11_0_0 x
    rcases List.mem_cons.mp hp with rfl | hp
    · exact slab_piece x0 W 10 (by decide) inb_S64x50x1000_S1x50x1000_10_0_0 inb_S64x50x128_S1x50x128_10_0_0 x
    rcases List.mem_cons.mp hp with rfl | hp
    · exact slab_piece x0 W 9 (by decide) inb_S64x50x1000_S1x50x1000_9_0_0 inb_S64x50x128_S1x50x128_9_0_0 x
    rcases List.mem_cons.mp hp with rfl | hp
    · exact slab_piece x0 W 8 (by decide) inb_S64x50x1000_S1x50x1000_8_0_0 inb_S64x50x128_S1x50x128_8_0_0 x
    rcases List.mem_cons.mp hp with rfl | hp
    · exact slab_piece x0 W 7 (by decide) inb_S64x50x1000_S1x50x1000_7_0_0 inb_S64x50x128_S1x50x128_7_0_0 x
    rcases List.mem_cons.mp hp with rfl | hp
    · exact slab_piece x0 W 6 (by decide) inb_S64x50x1000_S1x50x1000_6_0_0 inb_S64x50x128_S1x50x128_6_0_0 x
    rcases List.mem_cons.mp hp with rfl | hp
    · exact slab_piece x0 W 5 (by decide) inb_S64x50x1000_S1x50x1000_5_0_0 inb_S64x50x128_S1x50x128_5_0_0 x
    rcases List.mem_cons.mp hp with rfl | hp
    · exact slab_piece x0 W 4 (by decide) inb_S64x50x1000_S1x50x1000_4_0_0 inb_S64x50x128_S1x50x128_4_0_0 x
    rcases List.mem_cons.mp hp with rfl | hp
    · exact slab_piece x0 W 3 (by decide) inb_S64x50x1000_S1x50x1000_3_0_0 inb_S64x50x128_S1x50x128_3_0_0 x
    rcases List.mem_cons.mp hp with rfl | hp
    · exact slab_piece x0 W 2 (by decide) inb_S64x50x1000_S1x50x1000_2_0_0 inb_S64x50x128_S1x50x128_2_0_0 x
    rcases List.mem_cons.mp hp with rfl | hp
    · exact slab_piece x0 W 1 (by decide) inb_S64x50x1000_S1x50x1000_1_0_0 inb_S64x50x128_S1x50x128_1_0_0 x
    rcases List.mem_cons.mp hp with rfl | hp
    · exact slab_piece x0 W 0 (by decide) inb_S64x50x1000_S1x50x1000_0_0_0 inb_S64x50x128_S1x50x128_0_0_0 x
    nomatch hp
  · exact cover0_2 (F := Ideal) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

set_option maxHeartbeats 400000 in
/-- THE BLOCK the body leaves: the block function of the input block and of the table with its row 0 zeroed. -/
theorem out_eq (x0 : FVec Ideal S64x50x1000 .f32) (x1 : FVec Ideal S1000x128 .f32) :
    out0_2 (F := Ideal) x0 x1 = blockFn x0 (k0_pay2 (View.ld x1 r0_0)) := by
  funext y
  unfold out0_2
  simp only [pay1_eq, pay6_eq, pay7_eq, pay8_eq, pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq, pay58_eq, pay59_eq, pay60_eq, pay61_eq, pay62_eq, pay63_eq, pay64_eq, pay65_eq, pay3_eq, pay4_eq, pay5_eq]
  exact slabs_canon x0 _ y

end Cert.KernelIdeal.Embed

end
-- ==== Proof.Spec.lean ====
/-
  The specification: the continuous embedding as one function of the two argument arrays.

  x is the [1024, 50, 1000] array of soft distributions over the vocabulary, w the [1000, 128] embedding table.  The
  table's padding row 0 is zeroed, and output entry (b, r, c) is the sum over the vocabulary k of x(b, r, k) times the
  zeroed table's (k, c), on the extended reals.
-/
import Idealize.ShloMosaic.PureOps.Ideal
import Idealize.ShloMosaic.Lib.ValueIdx

noncomputable section

namespace Cert.Spec

open Idealize.ShloMosaic Idealize.ShloMosaic.ValueIdx

/-- The table with its padding row zeroed, at (k, c). -/
def zeroRow0 (w : (⟨2, ![1000, 128]⟩ : Shape).Idx → EReal) (k : Fin 1000) (c : Fin 128) : EReal :=
  if k.val = 0 then 0 else w (ix2 k c)

/-- The embedding: entry (b, r, c) is the sum over k of x(b, r, k) times the zeroed table's (k, c). -/
def embed (x : (⟨3, ![1024, 50, 1000]⟩ : Shape).Idx → EReal) (w : (⟨2, ![1000, 128]⟩ : Shape).Idx → EReal) :
    (⟨3, ![1024, 50, 128]⟩ : Shape).Idx → EReal :=
  fun i => ∑ k : Fin 1000,
    x (ix3 (⟨(i 0).val, (i 0).isLt⟩ : Fin 1024) (⟨(i 1).val, (i 1).isLt⟩ : Fin 50) k)
      * zeroRow0 w k (⟨(i 2).val, (i 2).isLt⟩ : Fin 128)

end Cert.Spec

end
-- ==== Proof.BlockOfEmbed.lean ====
/-
  The embedding's blocks.

  The grid has 16 points; point t stages batch entries 64·t … 64·t + 63 of the distributions (all rows, the whole
  vocabulary axis) and the whole table, and its output block is batch entries 64·t … 64·t + 63 of the output.  The block
  function of blocks so related to the arrays is the embedding's block t: entry (j, r, c) of the block is entry
  (64·t + j, r, c) of the array.  The 16 output blocks tile the batch axis, so every index of the output is in one.
-/
import proofs.«147626_g38534446579910_cont_8to1_b_497_22_alg».proof.Proof.Gen.KernelIdeal.Value
import proofs.«147626_g38534446579910_cont_8to1_b_497_22_alg».proof.Proof.BlockFn
import proofs.«147626_g38534446579910_cont_8to1_b_497_22_alg».proof.Proof.Spec

set_option maxRecDepth 16384

noncomputable section

namespace Cert.KernelIdeal.Embed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The block function of the staged blocks at grid point b is the embedding's block b: stated for any arrays and
    blocks related as the staging relates them (the distributions' block is batch entries 64·b …, the table's block
    the whole table), and any pair of a block index and an array index related as the output's block b relates them. -/
theorem point_eq (A0 : S1024x50x1000.Idx → EReal) (A1 : S1000x128.Idx → EReal)
    (X0 : FVec Ideal S64x50x1000 .f32) (X1 : FVec Ideal S1000x128 .f32) (b : Nat) (hb : b < 16)
    (hX0 : ∀ (j : Fin 64) (r : Fin 50) (k : Fin 1000), X0 (ix3 j r k) = A0 (ix3 (⟨b * 64 + j.val, by omega⟩ : Fin 1024) r k))
    (hX1 : ∀ (k : Fin 1000) (c : Fin 128), X1 (ix2 k c) = A1 (ix2 k c))
    (y : S64x50x128.Idx) (i : S1024x50x128.Idx)
    (h0 : (i 0).val = b * 64 + (y 0).val) (h1 : (i 1).val = (y 1).val) (h2 : (i 2).val = (y 2).val) :
    blockFn X0 (k0_pay2 (View.ld X1 r0_0)) y = Cert.Spec.embed A0 A1 i := by
  unfold blockFn prodAt Cert.Spec.embed Cert.Spec.zeroRow0
  refine Finset.sum_congr rfl fun k _ => ?_
  rw [maskedTable_apply, hX0, View.ld_unit_zero (S := S1000x128) zeros2, hX1]
  congr 1
  · refine congrArg A0 (funext fun a => Fin.ext ?_)
    match a with
    | ⟨0, _⟩ => exact h0.symm
    | ⟨1, _⟩ => exact h1.symm
    | ⟨2, _⟩ => rfl
  · have e2 : (⟨(y 2).val, (y 2).isLt⟩ : Fin 128) = ⟨(i 2).val, (i 2).isLt⟩ := Fin.ext h2.symm
    rw [e2]

/-- The printed index maps, decided over the 16 grid points: the distributions' window and the output's move along the
    batch axis with the point's number, every other block index is 0. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- An index of the output array is in point t's block iff each coordinate is in the block's range on its axis. -/
theorem mem_blk (t : Fin cfg0.N) (i : S1024x50x128.Idx) :
    i ∈ ((cfg0.win 2).blk t).view.set ↔ ∀ a : Fin 3, win0_2.index t a * S64x50x128.size a ≤ (i a).val
      ∧ (i a).val < win0_2.index t a * S64x50x128.size a + S64x50x128.size a := by
  show i ∈ ((View.whole main_v0).slice (win0_2.rect t)).set ↔ _
  rw [View.set_slice_whole, Rect.mem_set_unit]
  exact Iff.rfl

/-- Every index of the output array is in the block of the point its batch entry falls to: entry b to point b / 64. -/
theorem cover (i : S1024x50x128.Idx) :
    ∃ t : Fin cfg0.N, (cfg0.win 2).flush t = true ∧ i ∈ ((cfg0.win 2).blk t).view.set := by
  have hi0 : (i 0).val < 1024 := (i 0).isLt
  have hi1 : (i 1).val < 50 := (i 1).isLt
  have hi2 : (i 2).val < 128 := (i 2).isLt
  have hN : cfg0.N = 16 := N_0
  have hq : (i 0).val / 64 < cfg0.N := by rw [hN]; omega
  obtain ⟨f0, f1, f2, f3, f4, f5, f6, f7⟩ := idx_facts ⟨(i 0).val / 64, hq⟩
  have f5' : win0_2.index ⟨(i 0).val / 64, hq⟩ (0 : Fin 3) = (i 0).val / 64 := f5
  refine ⟨⟨(i 0).val / 64, hq⟩, flush0_2 _, ?_⟩
  rw [mem_blk]
  intro a
  match a with
  | ⟨0, _⟩ =>
    show win0_2.index ⟨(i 0).val / 64, hq⟩ (0 : Fin 3) * 64 ≤ (i 0).val
      ∧ (i 0).val < win0_2.index ⟨(i 0).val / 64, hq⟩ (0 : Fin 3) * 64 + 64
    omega
  | ⟨1, _⟩ =>
    show win0_2.index ⟨(i 0).val / 64, hq⟩ (1 : Fin 3) * 50 ≤ (i 1).val
      ∧ (i 1).val < win0_2.index ⟨(i 0).val / 64, hq⟩ (1 : Fin 3) * 50 + 50
    omega
  | ⟨2, _⟩ =>
    show win0_2.index ⟨(i 0).val / 64, hq⟩ (2 : Fin 3) * 128 ≤ (i 2).val
      ∧ (i 2).val < win0_2.index ⟨(i 0).val / 64, hq⟩ (2 : Fin 3) * 128 + 128
    omega

end Cert.KernelIdeal.Embed

end
-- ==== Proof.KernelValue.lean ====
/-
  The kernel's output array is the embedding of its two arguments.

  What grid point t writes back is the block function of the blocks it staged, which is block t of the embedding; the
  blocks cover the output array, so after the run the array holds the embedding everywhere.
-/
import proofs.«147626_g38534446579910_cont_8to1_b_497_22_alg».proof.Proof.Gen.KernelIdeal.Value
import proofs.«147626_g38534446579910_cont_8to1_b_497_22_alg».proof.Proof.Block
import proofs.«147626_g38534446579910_cont_8to1_b_497_22_alg».proof.Proof.BlockOfEmbed

set_option maxRecDepth 16384

noncomputable section

namespace Cert.KernelIdeal.Embed

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- WHAT POINT t WRITES BACK is block t of the embedding of the argument arrays as the region finds them. -/
theorem flushed_eq (c : Dev nD) (t : Fin cfg0.N) :
    (dats m 0 c).flushed 2 t
      = ((cfg0.win 2).blk t).view.read (Elt Ideal) (Cert.Spec.embed (V m c main_arg0) (V m c main_arg1)) := by
  rw [Cert.KernelIdeal.Value.flushed2, out_eq]
  obtain ⟨f0, f1, f2, f3, f4, f5, f6, f7⟩ := idx_facts t
  have ht : t.val < 16 := by have h := t.isLt; have e : cfg0.N = 16 := N_0; omega
  funext y
  refine point_eq (V m c main_arg0) (V m c main_arg1) (iblk m c 0 t) (iblk m c 1 t) t.val ht ?_ ?_ y
    (((cfg0.win 2).blk t).view.emb y) ?_ ?_ ?_
  · intro j r k
    show V m c main_arg0 (((cfg0.win 0).blk t).view.emb (ix3 j r k)) = _
    refine congrArg (V m c main_arg0) (funext fun a => Fin.ext ?_)
    match a with
    | ⟨0, _⟩ => show win0_0.index t (0 : Fin 3) * 64 + 1 * j.val = t.val * 64 + j.val; omega
    | ⟨1, _⟩ => show win0_0.index t (1 : Fin 3) * 50 + 1 * r.val = r.val; omega
    | ⟨2, _⟩ => show win0_0.index t (2 : Fin 3) * 1000 + 1 * k.val = k.val; omega
  · intro k c'
    show V m c main_arg1 (((cfg0.win 1).blk t).view.emb (ix2 k c')) = _
    refine congrArg (V m c main_arg1) (funext fun a => Fin.ext ?_)
    match a with
    | ⟨0, _⟩ => show win0_1.index t (0 : Fin 2) * 1000 + 1 * k.val = k.val; omega
    | ⟨1, _⟩ => show win0_1.index t (1 : Fin 2) * 128 + 1 * c'.val = c'.val; omega
  · show win0_2.index t (0 : Fin 3) * 64 + 1 * (y 0).val = t.val * 64 + (y 0).val; omega
  · show win0_2.index t (1 : Fin 3) * 50 + 1 * (y 1).val = (y 1).val; omega
  · show win0_2.index t (2 : Fin 3) * 128 + 1 * (y 2).val = (y 2).val; omega

/-- THE OUTPUT ARRAY after the run: the embedding of the two argument arrays. -/
theorem final (c : Dev nD) :
    (dats m 0 c).arrAt 2 cfg0.N
      = Cert.Spec.embed (m ((c : Thread nD τ).loc main_arg0)) (m ((c : Thread nD τ).loc main_arg1)) :=
  (dats m 0 c).arrAt_eq_of_cover 2 (Cert.Spec.embed (V m c main_arg0) (V m c main_arg1))
    (fun t _ => flushed_eq m c t) cover

/-- The kernel's run: every weakly fair execution terminates with the result array at the embedding of the arguments,
    the arguments unchanged. -/
theorem run : θ_run defs (onTc (τ := τ) (main (F := Ideal))) ⟨m, fun _ => 0, ρ⟩ fun r => ∀ c : Dev nD,
      r.2.mem ((c : Thread nD τ).loc main_v0)
        = Cert.Spec.embed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Embed

end
-- ==== Proof.LibScatterWindow.lean ====
/-
  A host scatter read at an index.

  The host's scatter is a left fold over the update indices in row-major order: each update whose result index lies
  inside the operand replaces the element there by the body applied to that element and the update.  When distinct
  updates land on distinct elements, the result at an element is the body applied once — to the operand's element and
  the one update that lands there — or the operand's element untouched when none does.  For the window scatter of an
  [n, h, w] array of updates into an [n, H, W] operand at a literal start (oi, oj) on the last two axes, update
  (b, u, v) lands on (b, u + oi, v + oj): the result at (b, r, s) is the body of the operand's element and update
  (b, r − oi, s − oj) when (r, s) lies in the window, the operand's element otherwise.
-/
import Idealize.ShloMosaic.PureOps.ShapeOps
import Idealize.ShloMosaic.Lib.ValueIdx

noncomputable section

namespace ScatterWindow

open Idealize.ShloMosaic Idealize.ShloMosaic.ValueIdx

/-! ## A fold of point updates -/

/-- One step of a fold of point updates.  Item `n` names at most one place `g n`: when it names `i`, the value there is
    replaced by the body `f` of that value and the item's value `v n`; when it names none, nothing changes. -/
def updStep {ι κ α : Type} [DecidableEq κ] (g : ι → Option κ) (f : α → α → α) (v : ι → α) (r : κ → α) (n : ι) : κ → α :=
  match g n with
  | some i => fun i' => if i' = i then f (r i) (v n) else r i'
  | none => r

/-- At the place the item names, a step applies the body to the old value and the item's value. -/
theorem updStep_of_eq {ι κ α : Type} [DecidableEq κ] (g : ι → Option κ) (f : α → α → α) (v : ι → α) (r : κ → α)
    {n : ι} {k : κ} (h : g n = some k) : updStep g f v r n k = f (r k) (v n) := by
  unfold updStep; rw [h]; exact if_pos rfl

/-- At a place the item does not name, a step changes nothing. -/
theorem updStep_of_ne {ι κ α : Type} [DecidableEq κ] (g : ι → Option κ) (f : α → α → α) (v : ι → α) (r : κ → α)
    {n : ι} {k : κ} (h : g n ≠ some k) : updStep g f v r n k = r k := by
  unfold updStep
  cases hg : g n with
  | none => rfl
  | some i =>
    have hki : k ≠ i := fun e => h (by rw [hg, e])
    exact if_neg hki

/-- A fold of point updates leaves a place alone when no item of the list names it. -/
theorem foldl_updStep_of_miss {ι κ α : Type} [DecidableEq κ] (g : ι → Option κ) (f : α → α → α) (v : ι → α)
    (l : List ι) (x : κ → α) (k : κ) (h : ∀ n ∈ l, g n ≠ some k) : l.foldl (updStep g f v) x k = x k := by
  induction l generalizing x with
  | nil => rfl
  | cons m l ih =>
    rw [List.foldl_cons, ih _ (fun n hn => h n (List.mem_cons_of_mem _ hn)),
      updStep_of_ne g f v x (h m List.mem_cons_self)]

/-- A fold of point updates over a list without repeats, when distinct items of the list never name the same place `k`:
    if item `n` of the list names `k`, the result at `k` is the body applied ONCE, to the initial value there and that
    item's value. -/
theorem foldl_updStep_of_hit {ι κ α : Type} [DecidableEq κ] (g : ι → Option κ) (f : α → α → α) (v : ι → α)
    (l : List ι) (hl : l.Nodup) (k : κ) (hinj : ∀ n ∈ l, ∀ m ∈ l, g n = some k → g m = some k → n = m)
    (x : κ → α) (n : ι) (hn : n ∈ l) (hg : g n = some k) : l.foldl (updStep g f v) x k = f (x k) (v n) := by
  induction l generalizing x with
  | nil => exact absurd hn List.not_mem_nil
  | cons m l ih =>
    rw [List.foldl_cons]
    have hm : m ∉ l := (List.nodup_cons.1 hl).1
    have hl' : l.Nodup := (List.nodup_cons.1 hl).2
    rcases List.mem_cons.1 hn with hnm | hn'
    · subst hnm
      rw [foldl_updStep_of_miss g f v l _ k ?_, updStep_of_eq g f v x hg]
      intro n' hn' hg'
      have e := hinj n' (List.mem_cons_of_mem _ hn') n List.mem_cons_self hg' hg
      subst e; exact hm hn'
    · have hgm : g m ≠ some k := fun hgm => by
        have e := hinj m List.mem_cons_self n hn hgm hg
        subst e; exact hm hn'
      rw [ih hl' (fun a ha c hc => hinj a (List.mem_cons_of_mem _ ha) c (List.mem_cons_of_mem _ hc)) _ hn',
        updStep_of_ne g f v x hgm]

/-! ## The host's scatter as such a fold -/

/-- The host's scatter is the fold of point updates over the update indices in row-major order, update `n` naming its
    result index when that lies inside the operand. -/
theorem scatter_eq_foldl {s si u : Shape} {α : Type} {w : Nat} (d : ScatterDims s si u) (f : α → α → α) (x : s.Idx → α)
    (idx : IVec si w) (upd : u.Idx → α) :
    Host.scatter d f x idx upd
      = (List.finRange u.numel).foldl
          (updStep (fun n => d.resultIdx? (u.rowMajor.symm n) idx) f (fun n => upd (u.rowMajor.symm n))) x := by
  unfold Host.scatter
  congr 1
  funext r n
  unfold updStep
  dsimp only
  cases d.resultIdx? (u.rowMajor.symm n) idx <;> rfl

/-- A scatter whose updates land on pairwise distinct elements, read at the element update `j` lands on: the body of the
    operand's element and that update. -/
theorem scatter_apply_of_hit {s si u : Shape} {α : Type} {w : Nat} (d : ScatterDims s si u) (f : α → α → α) (x : s.Idx → α)
    (idx : IVec si w) (upd : u.Idx → α) (i : s.Idx)
    (hinj : ∀ j j' : u.Idx, d.resultIdx? j idx = some i → d.resultIdx? j' idx = some i → j = j')
    (j : u.Idx) (hj : d.resultIdx? j idx = some i) : Host.scatter d f x idx upd i = f (x i) (upd j) := by
  rw [scatter_eq_foldl]
  refine (foldl_updStep_of_hit _ f _ _ (List.nodup_finRange _) i ?_ x (u.rowMajor j) (List.mem_finRange _) ?_).trans ?_
  · intro n _ m _ hn hm
    exact u.rowMajor.symm.injective (hinj _ _ hn hm)
  · show d.resultIdx? (u.rowMajor.symm (u.rowMajor j)) idx = some i
    rw [Equiv.symm_apply_apply]; exact hj
  · show f (x i) (upd (u.rowMajor.symm (u.rowMajor j))) = _
    rw [Equiv.symm_apply_apply]

/-- A scatter read at an element no update lands on: the operand's element. -/
theorem scatter_apply_of_miss {s si u : Shape} {α : Type} {w : Nat} (d : ScatterDims s si u) (f : α → α → α) (x : s.Idx → α)
    (idx : IVec si w) (upd : u.Idx → α) (i : s.Idx) (h : ∀ j : u.Idx, d.resultIdx? j idx ≠ some i) :
    Host.scatter d f x idx upd i = x i := by
  rw [scatter_eq_foldl]
  exact foldl_updStep_of_miss _ f _ _ x i (fun n _ => h _)

/-! ## The window scatter's result index -/

/-- A small natural number read back signed off its 32-bit word is itself. -/
theorem toInt_ofNat_small (o : Nat) (h : o ≤ 2) : (BitVec.ofNat 32 o).toInt = (o : Int) := by
  interval_cases o <;> rfl

/-- Two rank-3 indices given by coordinates are equal only when the coordinates are. -/
theorem ix3_inj {n0 n1 n2 : Nat} {a a' : Fin n0} {b b' : Fin n1} {c c' : Fin n2} (h : ix3 a b c = ix3 a' b' c') :
    a = a' ∧ b = b' ∧ c = c' := by
  have e0 := congrFun h ⟨0, (by decide : (0 : Nat) < 3)⟩
  have e1 := congrFun h ⟨1, (by decide : (1 : Nat) < 3)⟩
  have e2 := congrFun h ⟨2, (by decide : (2 : Nat) < 3)⟩
  exact ⟨e0, e1, e2⟩

/-- With the index vector on the scatter indices' one axis, the start's first component (for operand axis 1) is the
    scatter indices' word 0, read signed. -/
theorem start_one (wf : ScatterDims.WF (⟨3, ![8, 258, 258]⟩ : Shape) (⟨1, ![2]⟩ : Shape) (⟨3, ![8, 256, 256]⟩ : Shape) [0, 1, 2] [] [1, 2] 0)
    (j : (⟨3, ![8, 256, 256]⟩ : Shape).Idx) (idx : IVec (⟨1, ![2]⟩ : Shape) 32) :
    (⟨[0, 1, 2], [], [1, 2], 0, wf⟩ : ScatterDims (⟨3, ![8, 258, 258]⟩ : Shape) (⟨1, ![2]⟩ : Shape) (⟨3, ![8, 256, 256]⟩ : Shape)).start j idx 1
      = (idx (ix1 (0 : Fin 2))).toInt := by
  have hm : (1 : Fin (⟨3, ![8, 258, 258]⟩ : Shape).rank) ∈ ([1, 2] : List (Fin (⟨3, ![8, 258, 258]⟩ : Shape).rank)) := by decide
  unfold ScatterDims.start
  rw [dif_pos hm]
  refine congrArg (fun k => (idx k).toInt) ?_
  funext c
  match c with
  | ⟨0, _⟩ => rfl

/-- … and its second component (for operand axis 2) is word 1. -/
theorem start_two (wf : ScatterDims.WF (⟨3, ![8, 258, 258]⟩ : Shape) (⟨1, ![2]⟩ : Shape) (⟨3, ![8, 256, 256]⟩ : Shape) [0, 1, 2] [] [1, 2] 0)
    (j : (⟨3, ![8, 256, 256]⟩ : Shape).Idx) (idx : IVec (⟨1, ![2]⟩ : Shape) 32) :
    (⟨[0, 1, 2], [], [1, 2], 0, wf⟩ : ScatterDims (⟨3, ![8, 258, 258]⟩ : Shape) (⟨1, ![2]⟩ : Shape) (⟨3, ![8, 256, 256]⟩ : Shape)).start j idx 2
      = (idx (ix1 (1 : Fin 2))).toInt := by
  have hm : (2 : Fin (⟨3, ![8, 258, 258]⟩ : Shape).rank) ∈ ([1, 2] : List (Fin (⟨3, ![8, 258, 258]⟩ : Shape).rank)) := by decide
  unfold ScatterDims.start
  rw [dif_pos hm]
  refine congrArg (fun k => (idx k).toInt) ?_
  funext c
  match c with
  | ⟨0, _⟩ => rfl

/-- The window scatter's result index: update (b, u, v) lands on (b, u + oi, v + oj), always inside the operand. -/
theorem resultIdx_window
    (d : ScatterDims (⟨3, ![8, 258, 258]⟩ : Shape) (⟨1, ![2]⟩ : Shape) (⟨3, ![8, 256, 256]⟩ : Shape))
    (hu : d.updateWindowDims = [0, 1, 2]) (hi : d.insertedWindowDims = []) (hs : d.scatterDimsToOperandDims = [1, 2])
    (hv : d.indexVectorDim = 0) (idx : IVec (⟨1, ![2]⟩ : Shape) 32) (oi oj : Nat) (hoi : oi ≤ 2) (hoj : oj ≤ 2)
    (h0 : idx (ix1 (0 : Fin 2)) = BitVec.ofNat 32 oi) (h1 : idx (ix1 (1 : Fin 2)) = BitVec.ofNat 32 oj)
    (b : Fin 8) (u v : Fin 256) :
    d.resultIdx? (ix3 b u v) idx = some (ix3 b ⟨u.val + oi, by omega⟩ ⟨v.val + oj, by omega⟩) := by
  obtain ⟨uw, iw, sd, iv, wf⟩ := d
  dsimp only at hu hi hs hv
  subst hu hi hs hv
  have key : ∀ a : Fin (⟨3, ![8, 258, 258]⟩ : Shape).rank,
      (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
      = (((ix3 b ⟨u.val + oi, by omega⟩ ⟨v.val + oj, by omega⟩ : (⟨3, ![8, 258, 258]⟩ : Shape).Idx) a).val : Int) := by
    intro a
    match a with
    | ⟨0, _⟩ => exact Int.zero_add _
    | ⟨1, _⟩ =>
      have e : (⟨[0, 1, 2], [], [1, 2], 0, wf⟩ : ScatterDims (⟨3, ![8, 258, 258]⟩ : Shape) (⟨1, ![2]⟩ : Shape) (⟨3, ![8, 256, 256]⟩ : Shape)).start (ix3 b u v) idx 1 = (oi : Int) := by
        rw [start_one, h0]; exact toInt_ofNat_small oi hoi
      show (⟨[0, 1, 2], [], [1, 2], 0, wf⟩ : ScatterDims (⟨3, ![8, 258, 258]⟩ : Shape) (⟨1, ![2]⟩ : Shape) (⟨3, ![8, 256, 256]⟩ : Shape)).start (ix3 b u v) idx 1 + (u.val : Int) = ((u.val + oi : Nat) : Int)
      rw [e]; omega
    | ⟨2, _⟩ =>
      have e : (⟨[0, 1, 2], [], [1, 2], 0, wf⟩ : ScatterDims (⟨3, ![8, 258, 258]⟩ : Shape) (⟨1, ![2]⟩ : Shape) (⟨3, ![8, 256, 256]⟩ : Shape)).start (ix3 b u v) idx 2 = (oj : Int) := by
        rw [start_two, h1]; exact toInt_ofNat_small oj hoj
      show (⟨[0, 1, 2], [], [1, 2], 0, wf⟩ : ScatterDims (⟨3, ![8, 258, 258]⟩ : Shape) (⟨1, ![2]⟩ : Shape) (⟨3, ![8, 256, 256]⟩ : Shape)).start (ix3 b u v) idx 2 + (v.val : Int) = ((v.val + oj : Nat) : Int)
      rw [e]; omega
  unfold ScatterDims.resultIdx?
  have hall : ∀ a : Fin (⟨3, ![8, 258, 258]⟩ : Shape).rank,
      0 ≤ (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
      ∧ (⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)
        < ((⟨3, ![8, 258, 258]⟩ : Shape).size a : Int) := by
    intro a
    rw [key a]
    exact ⟨Int.natCast_nonneg _, Int.ofNat_lt.2 (Fin.isLt _)⟩
  rw [dif_pos hall]
  refine congrArg some ?_
  funext a
  apply Fin.ext
  show ((⟨[0, 1, 2], [], [1, 2], 0, wf⟩ : ScatterDims (⟨3, ![8, 258, 258]⟩ : Shape) (⟨1, ![2]⟩ : Shape) (⟨3, ![8, 256, 256]⟩ : Shape)).start (ix3 b u v) idx a
        + ((⟨[0, 1, 2], [], [1, 2], 0, wf⟩ : ScatterDims (⟨3, ![8, 258, 258]⟩ : Shape) (⟨1, ![2]⟩ : Shape) (⟨3, ![8, 256, 256]⟩ : Shape)).window (ix3 b u v) a : Int)).toNat = _
  rw [key a]
  exact Int.toNat_natCast _

/-- The scatter of an [8, 256, 256] array of updates into an [8, 258, 258] operand along the last two axes, whole
    update windows, the one start index (oi, oj) read off a two-word index vector: at (b, r, s) inside the window the
    body of the operand's element and update (b, r − oi, s − oj); outside, the operand's element. -/
theorem scatter_window_apply {α : Type}
    (d : ScatterDims (⟨3, ![8, 258, 258]⟩ : Shape) (⟨1, ![2]⟩ : Shape) (⟨3, ![8, 256, 256]⟩ : Shape))
    (hu : d.updateWindowDims = [0, 1, 2]) (hi : d.insertedWindowDims = []) (hs : d.scatterDimsToOperandDims = [1, 2])
    (hv : d.indexVectorDim = 0)
    (f : α → α → α) (x : (⟨3, ![8, 258, 258]⟩ : Shape).Idx → α) (idx : IVec (⟨1, ![2]⟩ : Shape) 32)
    (upd : (⟨3, ![8, 256, 256]⟩ : Shape).Idx → α) (oi oj : Nat) (hoi : oi ≤ 2) (hoj : oj ≤ 2)
    (h0 : idx (ix1 (0 : Fin 2)) = BitVec.ofNat 32 oi) (h1 : idx (ix1 (1 : Fin 2)) = BitVec.ofNat 32 oj)
    (b : Fin 8) (r s : Fin 258) :
    Host.scatter d f x idx upd (ix3 b r s)
      = if h : oi ≤ r.val ∧ r.val < oi + 256 ∧ oj ≤ s.val ∧ s.val < oj + 256 then
          f (x (ix3 b r s)) (upd (ix3 b ⟨r.val - oi, by omega⟩ ⟨s.val - oj, by omega⟩))
        else x (ix3 b r s) := by
  have hres : ∀ (b' : Fin 8) (u v : Fin 256),
      d.resultIdx? (ix3 b' u v) idx = some (ix3 b' ⟨u.val + oi, by omega⟩ ⟨v.val + oj, by omega⟩) :=
    fun b' u v => resultIdx_window d hu hi hs hv idx oi oj hoi hoj h0 h1 b' u v
  by_cases h : oi ≤ r.val ∧ r.val < oi + 256 ∧ oj ≤ s.val ∧ s.val < oj + 256
  · rw [dif_pos h]
    refine scatter_apply_of_hit d f x idx upd (ix3 b r s) ?_
      (ix3 b ⟨r.val - oi, by omega⟩ ⟨s.val - oj, by omega⟩) ?_
    · intro j j' hj hj'
      obtain ⟨b1, u1, v1, rfl⟩ : ∃ (b1 : Fin 8) (u1 v1 : Fin 256), j = ix3 b1 u1 v1 := ⟨j 0, j 1, j 2, eq_ix3 j⟩
      obtain ⟨b2, u2, v2, rfl⟩ : ∃ (b2 : Fin 8) (u2 v2 : Fin 256), j' = ix3 b2 u2 v2 := ⟨j' 0, j' 1, j' 2, eq_ix3 j'⟩
      rw [hres] at hj hj'
      obtain ⟨e0, e1, e2⟩ := ix3_inj ((Option.some.inj hj).trans (Option.some.inj hj').symm)
      have e1' := congrArg Fin.val e1
      have e2' := congrArg Fin.val e2
      have hu : u1 = u2 := Fin.ext (by simpa using e1')
      have hv : v1 = v2 := Fin.ext (by simpa using e2')
      rw [e0, hu, hv]
    · rw [hres]
      refine congrArg some ?_
      have er : (⟨r.val - oi + oi, by omega⟩ : Fin 258) = r := Fin.ext (by show r.val - oi + oi = r.val; omega)
      have es : (⟨s.val - oj + oj, by omega⟩ : Fin 258) = s := Fin.ext (by show s.val - oj + oj = s.val; omega)
      exact congrArg₂ (ix3 b) er es
  · rw [dif_neg h]
    refine scatter_apply_of_miss d f x idx upd _ ?_
    intro j hj
    obtain ⟨b1, u1, v1, rfl⟩ : ∃ (b1 : Fin 8) (u1 v1 : Fin 256), j = ix3 b1 u1 v1 := ⟨j 0, j 1, j 2, eq_ix3 j⟩
    rw [hres] at hj
    obtain ⟨_, e1, e2⟩ := ix3_inj (Option.some.inj hj)
    have e1' : u1.val + oi = r.val := congrArg Fin.val e1
    have e2' : v1.val + oj = s.val := congrArg Fin.val e2
    have hu1 : u1.val < 256 := u1.isLt
    have hv1 : v1.val < 256 := v1.isLt
    exact h (by omega)

end ScatterWindow

end
-- ==== Proof.RowScatter.lean ====
/-
  The reference's table: the argument with its row 0 replaced by zeros.

  The reference writes a row of 128 zeros into row 0 of the [1000, 128] table by a scatter with ONE scatter index, the
  word 0: update c lands on element (0, c), always inside the table, and distinct updates land on distinct elements.
  So the scattered table at (k, c) is the update's zero when k = 0 and the argument's entry otherwise.
-/
import proofs.«147626_g38534446579910_cont_8to1_b_497_22_alg».proof.Proof.Gen.ReferenceIdeal.Read
import proofs.«147626_g38534446579910_cont_8to1_b_497_22_alg».proof.Proof.LibScatterWindow

noncomputable section

namespace Cert.ReferenceIdeal.RefValue

open Cert.ReferenceIdeal Cert.ReferenceIdeal.Gen Cert.ReferenceIdeal.Read Idealize.ShloMosaic Idealize.ShloMosaic.ValueIdx

/-- On the table's row axis the window starts at the one scatter index, read signed. -/
theorem start_row (j : S128.Idx) (idx : IVec S1 32) :
    scatter_S1000x128_S1_S128_0_0_0_0.start j idx 0 = (idx (ix1 (0 : Fin 1))).toInt := by
  have hm : (0 : Fin S1000x128.rank) ∈ scatter_S1000x128_S1_S128_0_0_0_0.scatterDimsToOperandDims := by decide
  unfold ScatterDims.start
  rw [dif_pos hm]
  refine congrArg (fun k => (idx k).toInt) ?_
  funext c
  match c with
  | ⟨0, _⟩ => exact Subsingleton.elim (α := Fin 1) _ _

/-- On the column axis it starts at 0: the scatter index names no column. -/
theorem start_col (j : S128.Idx) (idx : IVec S1 32) :
    scatter_S1000x128_S1_S128_0_0_0_0.start j idx 1 = 0 := by
  have hm : ¬(1 : Fin S1000x128.rank) ∈ scatter_S1000x128_S1_S128_0_0_0_0.scatterDimsToOperandDims := by decide
  unfold ScatterDims.start
  rw [dif_neg hm]

/-- The update window has no extent along the rows … -/
theorem window_row (j : S128.Idx) : scatter_S1000x128_S1_S128_0_0_0_0.window j 0 = 0 := by
  have hm : ¬(0 : Fin S1000x128.rank) ∈ scatter_S1000x128_S1_S128_0_0_0_0.sKept := by decide
  unfold ScatterDims.window
  rw [dif_neg hm]

/-- … and runs along the columns with the update's one coordinate. -/
theorem window_col (j : S128.Idx) : scatter_S1000x128_S1_S128_0_0_0_0.window j 1 = (j 0).val := by
  have hm : (1 : Fin S1000x128.rank) ∈ scatter_S1000x128_S1_S128_0_0_0_0.sKept := by decide
  unfold ScatterDims.window
  rw [dif_pos hm]
  rfl

/-- With the scatter index the word 0, update c lands on element (0, c). -/
theorem resultIdx_row (idx : IVec S1 32) (h0 : idx (ix1 (0 : Fin 1)) = 0#32) (c : Fin 128) :
    scatter_S1000x128_S1_S128_0_0_0_0.resultIdx? (ix1 c) idx = some (ix2 (0 : Fin 1000) c) := by
  have key : ∀ a : Fin S1000x128.rank,
      scatter_S1000x128_S1_S128_0_0_0_0.start (ix1 c) idx a + (scatter_S1000x128_S1_S128_0_0_0_0.window (ix1 c) a : Int)
        = (((ix2 (0 : Fin 1000) c : S1000x128.Idx) a).val : Int) := by
    intro a
    match a with
    | ⟨0, _⟩ =>
      show scatter_S1000x128_S1_S128_0_0_0_0.start (ix1 c) idx 0 + (scatter_S1000x128_S1_S128_0_0_0_0.window (ix1 c) 0 : Int) = ((0 : Nat) : Int)
      rw [start_row, window_row, h0]; rfl
    | ⟨1, _⟩ =>
      show scatter_S1000x128_S1_S128_0_0_0_0.start (ix1 c) idx 1 + (scatter_S1000x128_S1_S128_0_0_0_0.window (ix1 c) 1 : Int) = ((c.val : Nat) : Int)
      rw [start_col, window_col]; exact Int.zero_add _
  unfold ScatterDims.resultIdx?
  have hall : ∀ a : Fin S1000x128.rank,
      0 ≤ scatter_S1000x128_S1_S128_0_0_0_0.start (ix1 c) idx a + (scatter_S1000x128_S1_S128_0_0_0_0.window (ix1 c) a : Int)
      ∧ scatter_S1000x128_S1_S128_0_0_0_0.start (ix1 c) idx a + (scatter_S1000x128_S1_S128_0_0_0_0.window (ix1 c) a : Int)
        < (S1000x128.size a : Int) := by
    intro a
    rw [key a]
    exact ⟨Int.natCast_nonneg _, Int.ofNat_lt.2 (Fin.isLt _)⟩
  rw [dif_pos hall]
  refine congrArg some ?_
  funext a
  apply Fin.ext
  show (scatter_S1000x128_S1_S128_0_0_0_0.start (ix1 c) idx a + (scatter_S1000x128_S1_S128_0_0_0_0.window (ix1 c) a : Int)).toNat = _
  rw [key a]
  exact Int.toNat_natCast _

/-- The one scatter index the reference builds is the word 0. -/
theorem scatterIndex_zero : val_main_v0 (F := Ideal) (ix1 (0 : Fin 1)) = 0#32 := by
  rw [val_main_v0_apply]; rfl

/-- THE REFERENCE'S TABLE at (k, c): zero on row 0, the argument's entry elsewhere. -/
theorem zeroedTable_apply (x1 : FVec Ideal S1000x128 .f32) (k : Fin 1000) (c : Fin 128) :
    val_main_v2 (F := Ideal) x1 (ix2 k c) = if k.val = 0 then (0 : EReal) else x1 (ix2 k c) := by
  unfold val_main_v2
  have hres : ∀ c' : Fin 128, scatter_S1000x128_S1_S128_0_0_0_0.resultIdx? (ix1 c') (val_main_v0 (F := Ideal))
      = some (ix2 (0 : Fin 1000) c') := fun c' => resultIdx_row _ scatterIndex_zero c'
  by_cases h : k.val = 0
  · rw [if_pos h]
    have hk : k = 0 := Fin.ext h
    subst hk
    refine (ScatterWindow.scatter_apply_of_hit scatter_S1000x128_S1_S128_0_0_0_0 (fun _ b => b) x1 _ _ (ix2 (0 : Fin 1000) c) ?_
      (ix1 c) (hres c)).trans ?_
    · intro j j' hj hj'
      obtain ⟨c1, rfl⟩ : ∃ c1 : Fin 128, j = ix1 c1 := ⟨j 0, eq_ix1 j⟩
      obtain ⟨c2, rfl⟩ : ∃ c2 : Fin 128, j' = ix1 c2 := ⟨j' 0, eq_ix1 j'⟩
      rw [hres] at hj hj'
      have e := congrFun ((Option.some.inj hj).trans (Option.some.inj hj').symm) 1
      have e' : c1 = c2 := e
      rw [e']
    · show val_main_v1 (F := Ideal) (ix1 c) = 0
      rw [val_main_v1_apply, val_main_cst_apply]
      exact Ideal.ofBits_zero_f32
  · rw [if_neg h]
    refine ScatterWindow.scatter_apply_of_miss scatter_S1000x128_S1_S128_0_0_0_0 (fun _ b => b) x1 _ _ _ ?_
    intro j hj
    obtain ⟨c1, rfl⟩ : ∃ c1 : Fin 128, j = ix1 c1 := ⟨j 0, eq_ix1 j⟩
    rw [hres] at hj
    have e := congrArg Fin.val (congrFun (Option.some.inj hj) 0)
    exact h e.symm

end Cert.ReferenceIdeal.RefValue

end
-- ==== Proof.RefIsSpec.lean ====
/-
  The reference computes the specification.

  The reference zeroes the table's row 0 by a one-index scatter and contracts the distributions with the zeroed table
  over the vocabulary axis.  Read at an output index, the contraction is the sum over k of the distribution's
  (b, r, k) times the scattered table's (k, c), and the scattered table is the argument with row 0 zeroed.
-/
import proofs.«147626_g38534446579910_cont_8to1_b_497_22_alg».proof.Proof.RowScatter
import proofs.«147626_g38534446579910_cont_8to1_b_497_22_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- THE REFERENCE'S RESULT is the embedding of its two arguments. -/
theorem reference_eq (x0 : FVec Ideal S1024x50x1000 .f32) (x1 : FVec Ideal S1000x128 .f32) :
    val_main_v3 (F := Ideal) x0 x1 = Cert.Spec.embed x0 x1 := by
  funext i
  rw [val_main_v3_apply]
  unfold Cert.Spec.embed Cert.Spec.zeroRow0
  refine Finset.sum_congr rfl fun k _ => ?_
  have el : lidx_main_v3 i k = ix3 (⟨(i 0).val, (i 0).isLt⟩ : Fin 1024) (⟨(i 1).val, (i 1).isLt⟩ : Fin 50) k :=
    funext fun a => by match a with | ⟨0, _⟩ => rfl | ⟨1, _⟩ => rfl | ⟨2, _⟩ => rfl
  have er : ridx_main_v3 i k = ix2 k (⟨(i 2).val, (i 2).isLt⟩ : Fin 128) :=
    funext fun a => by match a with | ⟨0, _⟩ => rfl | ⟨1, _⟩ => rfl
  rw [el, er, zeroedTable_apply]

end Cert.ReferenceIdeal.RefValue

end
-- ==== Proof.lean ====
/- The proof of `Cert.Claim` (proofs.«147626_g38534446579910_cont_8to1_b_497_22_alg».proof.Defs).

   The kernel computes a continuous embedding: a [1024, 50, 1000] array of soft distributions over a vocabulary of 1000
   times a [1000, 128] table whose padding row 0 is zeroed.  Its grid of 16 points walks the batch axis 64 entries at a
   time; at a point the body zeroes row 0 of the table by a select on the row number, and multiplies each of the 64
   batch entries' [50, 1000] rows by the table into a zero accumulator (the operands narrowed to bf16 first, which on
   the extended reals changes nothing).  The reference zeroes row 0 by a one-index scatter and contracts the whole
   array with the table in one product.  On the extended reals both are the same function of the two arguments,
   Spec.lean's `embed`: entry (b, r, c) is the sum over k of x(b, r, k) times the zeroed table's (k, c) — the same
   products summed over the same index set, so no law beyond the sum's own definition joins the two sides and the
   inputs' finiteness is never used.

   Slab.lean: one batch entry's product at an index, and the table as the kernel masks it.  BlockFn.lean, Block.lean:
   the 64 stores of the body leave ONE function of the block index.  BlockOfEmbed.lean, KernelValue.lean: that function
   of the staged blocks is block t of `embed`, the 16 blocks cover the output, so the kernel's result array is `embed`
   of its arguments.  RowScatter.lean, RefIsSpec.lean: the reference's scattered table and its product are `embed`.
   The three frames are the generated runs; the idealization rewrote nothing, so `preserves` is trivial. -/
import proofs.«147626_g38534446579910_cont_8to1_b_497_22_alg».proof.Defs
import proofs.«147626_g38534446579910_cont_8to1_b_497_22_alg».proof.Proof.Gen.Kernel
import proofs.«147626_g38534446579910_cont_8to1_b_497_22_alg».proof.Proof.Gen.Kernel.Skeleton
import proofs.«147626_g38534446579910_cont_8to1_b_497_22_alg».proof.Proof.Gen.Kernel.Launch
import proofs.«147626_g38534446579910_cont_8to1_b_497_22_alg».proof.Proof.Gen.Kernel.Points
import proofs.«147626_g38534446579910_cont_8to1_b_497_22_alg».proof.Proof.Gen.Kernel.Frame
import proofs.«147626_g38534446579910_cont_8to1_b_497_22_alg».proof.Proof.Gen.KernelIdeal
import proofs.«147626_g38534446579910_cont_8to1_b_497_22_alg».proof.Proof.Gen.KernelIdeal.Skeleton
import proofs.«147626_g38534446579910_cont_8to1_b_497_22_alg».proof.Proof.Gen.KernelIdeal.Launch
import proofs.«147626_g38534446579910_cont_8to1_b_497_22_alg».proof.Proof.Gen.KernelIdeal.Points
import proofs.«147626_g38534446579910_cont_8to1_b_497_22_alg».proof.Proof.Gen.KernelIdeal.Frame
import proofs.«147626_g38534446579910_cont_8to1_b_497_22_alg».proof.Proof.Gen.ReferenceIdeal
import proofs.«147626_g38534446579910_cont_8to1_b_497_22_alg».proof.Proof.Gen.Pre_finite_inputs
import proofs.«147626_g38534446579910_cont_8to1_b_497_22_alg».proof.Proof.Gen.KernelIdeal.Value
import proofs.«147626_g38534446579910_cont_8to1_b_497_22_alg».proof.Proof.Gen.ReferenceIdeal.Run
import proofs.«147626_g38534446579910_cont_8to1_b_497_22_alg».proof.Proof.Gen.ReferenceIdeal.Read
import proofs.«147626_g38534446579910_cont_8to1_b_497_22_alg».proof.Proof.KernelValue
import proofs.«147626_g38534446579910_cont_8to1_b_497_22_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's are both the embedding of the arguments, and the
    arguments agree. -/
theorem algebraic : Cert.algebraic_KernelIdeal_ReferenceIdeal := by
  intro m ρ m' ρ' _ hagree
  refine ⟨fun c => Cert.Spec.embed (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Embed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
